-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x32x32 : Shape := ⟨4, ![16, 256, 32, 32]⟩
abbrev S2048x256 : Shape := ⟨2, ![2048, 256]⟩
abbrev S_ : Shape := ⟨0, ![]⟩

class Facts : Prop where
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S16x256x32x32 .f32) (main_arg1 : FVec F S2048x256 .f32) : IVec S_ 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_c : IVec S_ 1 := constantI S_ 1 1#1
  let main_v3 : IVec S_ 1 := (fun x v => Host.reduce IntOp.andi x v reducesTo_S16x256x32x32_S_d0_1_2_3 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S16x256x32x32 : Shape := ⟨4, ![16, 256, 32, 32]⟩
abbrev S2048x256 : Shape := ⟨2, ![2048, 256]⟩
abbrev S16x256x1024 : Shape := ⟨3, ![16, 256, 1024]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S16384x2048 : Shape := ⟨2, ![16384, 2048]⟩
abbrev S1x256x1024 : Shape := ⟨3, ![1, 256, 1024]⟩
abbrev S1024x256 : Shape := ⟨2, ![1024, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S1024x1 : Shape := ⟨2, ![1024, 1]⟩

abbrev nBuf : Space → Nat
  | .hbm => 14
  | .vmem => 9
  | .smem => 0
  | _ => 0

abbrev bufTy : (tb : Table) → Fin (tcTables nBuf tb) → BufTy
  | .hbm, ⟨0, _⟩ => ⟨S16x256x32x32, .f32⟩
  | .hbm, ⟨1, _⟩ => ⟨S2048x256, .f32⟩
  | .hbm, ⟨2, _⟩ => ⟨S16x256x1024, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S1x2048, .f32⟩
  | .hbm, ⟨8, _⟩ => ⟨S16384x2048, .f32⟩
  | .hbm, ⟨9, _⟩ => ⟨S1x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S1024x256, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_15 : BitVec 32 := 0#32
  let v31 : BitVec 1 := Scalar.cmpi .ne v30 c0_i32_15
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x256x32x32_S16x256x1024 : S16x256x32x32.ShapeCasts S16x256x1024
  reducesTo_S2048x256_S2048_d1 : S2048x256.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  reduces_S256x1024_S1024 : S256x1024.Reduces [0] S1024
  shapeCasts_S1024_S1x1024 : S1024.ShapeCasts S1x1024
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  reducesTo_S1x2048_S_d0_1 : S1x2048.ReducesTo [0, 1] S_
  dot_S256x1024_S1024x256_S1024x1024_0_1_1_0_n_n_wf : DotDims.WF S256x1024 S1024x256 S1024x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x256x1024.size a
  hwx0_0 : ∀ i : grid0.Coords, EltTy.bits .f32 = 32 ∨ (Rect.block (s := S16x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S2048x256.size a
  hwx0_1 : ∀ i : grid0.Coords, EltTy.bits .f32 = 32 ∨ (Rect.block (s := S2048x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x2048.size a
  hwx0_3 : ∀ i : grid0.Coords, EltTy.bits .f32 = 32 ∨ (Rect.block (s := S16384x2048) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x2048.size a
  hwx0_4 : ∀ i : grid0.Coords, EltTy.bits .f32 = 32 ∨ (Rect.block (s := S1x2048) S1x1024.size (cc0_transform_4 i) (hinb0_4 i)).WholeWords (EltTy.packing .f32)

variable [Facts₀]

def dot_S256x1024_S1024x256_S1024x1024_0_1_1_0_n_n : DotDims S256x1024 S1024x256 S1024x1024 where
  lhsContracting := [0]
  rhsContracting := [1]
  lhsNonContracting := [1]
  rhsNonContracting := [0]
  lhsBatch := []
  rhsBatch := []
  wf := dot_S256x1024_S1024x256_S1024x1024_0_1_1_0_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S16x256x32x32 : Shape := ⟨4, ![16, 256, 32, 32]⟩
abbrev S2048x256 : Shape := ⟨2, ![2048, 256]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S2048 : Shape := ⟨1, ![2048]⟩
abbrev S16384x2048 : Shape := ⟨2, ![16384, 2048]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S2048x256, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S2048x256, .f32⟩
  | .hbm, ⟨9, _⟩ => ⟨S_, .f32⟩
  | .hbm, ⟨10, _⟩ => ⟨S2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  transposes_S16x256x32x32_S16x32x32x256_0_2_3_1 : S16x256x32x32.Transposes [0, 2, 3, 1] S16x32x32x256
  shapeCasts_S16x32x32x256_S16384x256 : S16x32x32x256.ShapeCasts S16384x256
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S2048x256_S2048_d1 : S2048x256.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  reducesTo_S16384x2048_S2048_d0 : S16384x2048.ReducesTo [0] S2048
  reducesTo_S2048_S_d0 : S2048.ReducesTo [0] S_
  dot_S16384x256_S2048x256_S16384x2048_1_1_0_0_n_n_wf : DotDims.WF S16384x256 S2048x256 S16384x2048 [1] [1] [0] [0] [] []

variable [Facts₀]

def dot_S16384x256_S2048x256_S16384x2048_1_1_0_0_n_n : DotDims S16384x256 S2048x256 S16384x2048 where
  lhsContracting := [1]
  rhsContracting := [1]
  lhsNonContracting := [0]
  rhsNonContracting := [0]
  lhsBatch := []
  rhsBatch := []
  wf := dot_S16384x256_S2048x256_S16384x2048_1_1_0_0_n_n_wf

class Facts : Prop extends Facts₀ where

variable [Facts]
-- ==== Proof.KernelFrame.Defs.lean ====
/-
  What the three runs of the kernel body share. The grid is 2 × 16: the first coordinate picks a half of the codebook,
  the second an image; point `t` is image `t % 16` of half `t / 16`. The body branches three times on the image's
  number: at image 0 it stores the block's column minima into the scratch row, at every later image it folds them
  into the row with `min`, and at image 15 it copies the row into the second output's buffer. So every point is in
  one of three cases: the first image (A), a middle image (B), the last image (C). Here: the three conditions as the
  body computes them with their closed forms over the grid, where the second output's window is idle and where it is
  written back, the names of the staging buffers at a point, and the region's invariant with the scratch row as a
  buffer owned at some contents.
-/
import proofs.«119047_j38946763440842_2_alg».proof.Proof.Gen.Kernel.Frame
import proofs.«119047_j38946763440842_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's three conditions -/

/-- "The image is the first one", as the body computes it from the grid coordinates. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 16 = 0 :=
  (by decide +kernel : ∀ t : Fin grid0.N, cond0 (grid0.coords t) ↔ t.val % 16 = 0)

/-- "The image is not the first one". -/
abbrev cond1 (i : grid0.Coords) : Prop := (Scalar.cmpi .ne (Scalar.extui (Scalar.cmpi .sgt (BitVec.ofNat 32 (i 1).val) 0#32)) 0#32) = 1#1
theorem hcond1 : ∀ t : Fin cfg0.N, cond1 (grid0.coords t) ↔ t.val % 16 ≠ 0 :=
  (by decide +kernel : ∀ t : Fin grid0.N, cond1 (grid0.coords t) ↔ t.val % 16 ≠ 0)

/-- "The image is the last one". -/
abbrev cond2 (i : grid0.Coords) : Prop := k0_cond3 i = 1#1
theorem hcond2 : ∀ t : Fin cfg0.N, cond2 (grid0.coords t) ↔ t.val % 16 = 15 :=
  (by decide +kernel : ∀ t : Fin grid0.N, cond2 (grid0.coords t) ↔ t.val % 16 = 15)

/-! ## Where the windows are idle and where the second output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last image the body stores nothing into the second output's buffer, -/
theorem idleAt4 : ∀ t : Fin cfg0.N, t.val % 16 ≠ 15 → cfg0.idle 4 (grid0.coords t) = true := by decide +kernel
/-- and the buffer is not written back there; -/
theorem noFlush4 : ∀ t : Fin cfg0.N, t.val % 16 ≠ 15 → (cfg0.win 4).flush t = false := by decide +kernel
/-- at the last image it stores the whole row. -/
theorem liveAt4 : ∀ t : Fin cfg0.N, t.val % 16 = 15 → cfg0.idle 4 (grid0.coords t) = false := by decide +kernel

/-! ## The buffers at a point -/

/-- One staging buffer of each output window, through which its contents are stated. -/
abbrev VO3 : View sig .tc .vmem S1024x1024 .f32 := (Memref.whole cc0_stg3_0 : Memref sig .tc .vmem S1024x1024 .f32).view
abbrev VO4 : View sig .tc .vmem S1x1024 .f32 := (Memref.whole cc0_stg4_0 : Memref sig .tc .vmem S1x1024 .f32).view
/-- Each window's current staging buffer at point `t`, as the body is called with it, and its wholeness. -/
abbrev ms0 (t : Fin cfg0.N) : Memref sig .tc .vmem S1x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
/-- The scratch row, a whole buffer of the kernel's own, and the view its contents are stated through. -/
abbrev scM : Memref sig .tc .vmem S1x1024 .f32 := Memref.whole cc0_scratch0
abbrev VS : View sig .tc .vmem S1x1024 .f32 := scM.view

/-- The region's invariant, with the scratch row as a buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KernelFrame.RunA.lean ====
/-
  The body run at a point of the FIRST image: it loads the three input blocks, stores the block of clamped squared
  distances whole into the first output's buffer, and stores that block's column minima whole into the scratch row,
  whatever the row held; the second output's buffer is handed back as found. What each buffer ends with is recorded
  as the list of pieces written into it.
-/
import proofs.«119047_j38946763440842_2_alg».proof.Proof.KernelFrame.Defs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRunA (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : cond0 i) (hc1 : ¬cond1 i) (hc2 : ¬cond2 i)
    (x0 : Vec F S1x256x1024 .f32) (x1 : Vec F S1024x256 .f32) (x2 : Vec F S1x1024 .f32) :
    Σ' (L3 : List (View.Piece (Elt F) S1024x1024 .f32)), { LS : List (View.Piece (Elt F) S1x1024 .f32) //
      ∀ (xi4 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__vq_kernel i arg2 harg2 arg3 harg3 arg4 harg4 arg5 harg5 arg6 harg6 arg7 harg7) K } := by
  refine ⟨?_, ?_, fun xi4 E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
    obtain rfl := harg2.eq_unread hf0; obtain rfl := harg3.eq_unread hf1; obtain rfl := harg4.eq_unread hf2; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS

end Cert.Kernel.Body

end
-- ==== Proof.KernelFrame.RunB.lean ====
/-
  The body run at a point of a MIDDLE image: as at the first image for the distances, and the scratch row, which holds
  what the point before left (`xs`), is replaced whole by its minimum with the block's column minima; the second
  output's buffer is handed back as found.
-/
import proofs.«119047_j38946763440842_2_alg».proof.Proof.KernelFrame.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRunB (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : ¬cond0 i) (hc1 : cond1 i) (hc2 : ¬cond2 i)
    (x0 : Vec F S1x256x1024 .f32) (x1 : Vec F S1024x256 .f32) (x2 : Vec F S1x1024 .f32) (xs : Vec F S1x1024 .f32) :
    Σ' (L3 : List (View.Piece (Elt F) S1024x1024 .f32)), { LS : List (View.Piece (Elt F) S1x1024 .f32) //
      ∀ (xi4 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__vq_kernel i arg2 harg2 arg3 harg3 arg4 harg4 arg5 harg5 arg6 harg6 arg7 harg7) K } := by
  refine ⟨?_, ?_, fun xi4 E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
    obtain rfl := harg2.eq_unread hf0; obtain rfl := harg3.eq_unread hf1; obtain rfl := harg4.eq_unread hf2; obtain rfl := harg6.eq_unread hf4; obtain rfl := harg7.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS

end Cert.Kernel.Body

end
-- ==== Proof.KernelFrame.RunC.lean ====
/-
  The body run at a point of the LAST image: as at a middle image, and then the scratch row just written is copied whole
  into the second output's buffer, whatever that held.
-/
import proofs.«119047_j38946763440842_2_alg».proof.Proof.KernelFrame.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRunC (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : ¬cond0 i) (hc1 : cond1 i) (hc2 : cond2 i)
    (x0 : Vec F S1x256x1024 .f32) (x1 : Vec F S1024x256 .f32) (x2 : Vec F S1x1024 .f32) (xs : Vec F S1x1024 .f32) :
    Σ' (L3 : List (View.Piece (Elt F) S1024x1024 .f32)) (L4 : List (View.Piece (Elt F) S1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__vq_kernel i arg2 harg2 arg3 harg3 arg4 harg4 arg5 harg5 arg6 harg6 arg7 harg7) K } := by
  refine ⟨?_, ?_, ?_, fun E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg2.eq_unread hf0; obtain rfl := harg3.eq_unread hf1; obtain rfl := harg4.eq_unread hf2; obtain rfl := harg7.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

end Cert.Kernel.Body

end
-- ==== Proof.KernelFrame.Frame.lean ====
/-
  The frame of the program from the three runs of its body. Point by point: which case a point is in is read off its
  number (`t % 16 = 0`: first image; `t % 16 = 15`: last image; else a middle image); what the first output's buffer,
  the second output's buffer and the scratch row hold after the body at point `t` is defined by recursion on `t`, the
  scratch row at a later image folding what the point before left; the region's invariant carries the scratch row at that
  value from one point to the next. The second output's window is idle except at the last image of each half, where the
  row is copied out and written back. From these the pipeline's proof data, the body obligation at every point, the run of
  the whole program, and its frame.
-/
import proofs.«119047_j38946763440842_2_alg».proof.Proof.KernelFrame.RunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a point -/

/-- The first-image run at point `t`, on the point's staging buffers and input blocks. -/
def runA (c : Dev nD) (t : Fin cfg0.N) (h0 : t.val % 16 = 0) :=
  kernelRunA (F := F) c (grid0.coords t) (ms0 t) (hs0 t) (ms1 t) (hs1 t) (ms2 t) (hs2 t) (ms3 t) (hs3 t) (ms4 t) (hs4 t) scM (Memref.isWhole_whole _) ((hcond0 t).mpr h0) (fun h => (hcond1 t).mp h h0) (fun h => by have := (hcond2 t).mp h; omega) (iblk m c 0 t) (iblk m c 1 t) (iblk m c 2 t)
/-- The middle-image run at point `t`, the scratch row at `xs`. -/
def runB (c : Dev nD) (t : Fin cfg0.N) (h0 : t.val % 16 ≠ 0) (h2 : t.val % 16 ≠ 15) (xs : Vec F S1x1024 .f32) :=
  kernelRunB (F := F) c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h0) (fun h => h2 ((hcond2 t).mp h)) (iblk m c 0 t) (iblk m c 1 t) (iblk m c 2 t) xs
/-- The last-image run at point `t`, the scratch row at `xs`. -/
def runC (c : Dev nD) (t : Fin cfg0.N) (h2 : t.val % 16 = 15) (xs : Vec F S1x1024 .f32) :=
  kernelRunC (F := F) c (grid0.coords t) (ms0 t) (hs0 t) (ms1 t) (hs1 t) (ms2 t) (hs2 t) (ms3 t) (hs3 t) (ms4 t) (hs4 t) scM (Memref.isWhole_whole _) (fun h => by have := (hcond0 t).mp h; omega) ((hcond1 t).mpr (by omega)) ((hcond2 t).mpr h2) (iblk m c 0 t) (iblk m c 1 t) (iblk m c 2 t) xs

/-! ## What each run's pieces leave, and that they cover their buffers -/

theorem cover3_A (c : Dev nD) (t : Fin cfg0.N) (h0 : t.val % 16 = 0) (y : S1024x1024.Idx) : ∃ pc ∈ (runA m c t h0).1, y ∈ pc.1.set :=
  View.cover_of_tiledL (runA m c t h0).1 S1024x1024.size (by sl_kernel_rfl) y
theorem scover_A (c : Dev nD) (t : Fin cfg0.N) (h0 : t.val % 16 = 0) (y : S1x1024.Idx) : ∃ pc ∈ (runA m c t h0).2.1, y ∈ pc.1.set :=
  View.cover_of_tiledL (runA m c t h0).2.1 S1x1024.size (by sl_kernel_rfl) y
def out3_A (c : Dev nD) (t : Fin cfg0.N) (h0 : t.val % 16 = 0) : Vec F S1024x1024 .f32 :=
  VO3.read (Elt F) (VO3.writes (Elt F) VO3.junk (runA m c t h0).1)
def sout_A (c : Dev nD) (t : Fin cfg0.N) (h0 : t.val % 16 = 0) : Vec F S1x1024 .f32 :=
  VS.read (Elt F) (VS.writes (Elt F) VS.junk (runA m c t h0).2.1)

theorem cover3_B (c : Dev nD) (t : Fin cfg0.N) (h0 : t.val % 16 ≠ 0) (h2 : t.val % 16 ≠ 15) (xs : Vec F S1x1024 .f32) (y : S1024x1024.Idx) :
    ∃ pc ∈ (runB m c t h0 h2 xs).1, y ∈ pc.1.set :=
  View.cover_of_tiledL (runB m c t h0 h2 xs).1 S1024x1024.size (by sl_kernel_rfl) y
theorem scover_B (c : Dev nD) (t : Fin cfg0.N) (h0 : t.val % 16 ≠ 0) (h2 : t.val % 16 ≠ 15) (xs : Vec F S1x1024 .f32) (y : S1x1024.Idx) :
    ∃ pc ∈ (runB m c t h0 h2 xs).2.1, y ∈ pc.1.set :=
  View.cover_of_tiledL (runB m c t h0 h2 xs).2.1 S1x1024.size (by sl_kernel_rfl) y
def out3_B (c : Dev nD) (t : Fin cfg0.N) (h0 : t.val % 16 ≠ 0) (h2 : t.val % 16 ≠ 15) (xs : Vec F S1x1024 .f32) : Vec F S1024x1024 .f32 :=
  VO3.read (Elt F) (VO3.writes (Elt F) VO3.junk (runB m c t h0 h2 xs).1)
def sout_B (c : Dev nD) (t : Fin cfg0.N) (h0 : t.val % 16 ≠ 0) (h2 : t.val % 16 ≠ 15) (xs : Vec F S1x1024 .f32) : Vec F S1x1024 .f32 :=
  VS.read (Elt F) (VS.writes (Elt F) VS.junk (runB m c t h0 h2 xs).2.1)

theorem cover3_C (c : Dev nD) (t : Fin cfg0.N) (h2 : t.val % 16 = 15) (xs : Vec F S1x1024 .f32) (y : S1024x1024.Idx) :
    ∃ pc ∈ (runC m c t h2 xs).1, y ∈ pc.1.set :=
  View.cover_of_tiledL (runC m c t h2 xs).1 S1024x1024.size (by sl_kernel_rfl) y
theorem cover4_C (c : Dev nD) (t : Fin cfg0.N) (h2 : t.val % 16 = 15) (xs : Vec F S1x1024 .f32) (y : S1x1024.Idx) :
    ∃ pc ∈ (runC m c t h2 xs).2.1, y ∈ pc.1.set :=
  View.cover_of_tiledL (runC m c t h2 xs).2.1 S1x1024.size (by sl_kernel_rfl) y
theorem scover_C (c : Dev nD) (t : Fin cfg0.N) (h2 : t.val % 16 = 15) (xs : Vec F S1x1024 .f32) (y : S1x1024.Idx) :
    ∃ pc ∈ (runC m c t h2 xs).2.2.1, y ∈ pc.1.set :=
  View.cover_of_tiledL (runC m c t h2 xs).2.2.1 S1x1024.size (by sl_kernel_rfl) y
def out3_C (c : Dev nD) (t : Fin cfg0.N) (h2 : t.val % 16 = 15) (xs : Vec F S1x1024 .f32) : Vec F S1024x1024 .f32 :=
  VO3.read (Elt F) (VO3.writes (Elt F) VO3.junk (runC m c t h2 xs).1)
def out4_C (c : Dev nD) (t : Fin cfg0.N) (h2 : t.val % 16 = 15) (xs : Vec F S1x1024 .f32) : Vec F S1x1024 .f32 :=
  VO4.read (Elt F) (VO4.writes (Elt F) VO4.junk (runC m c t h2 xs).2.1)
def sout_C (c : Dev nD) (t : Fin cfg0.N) (h2 : t.val % 16 = 15) (xs : Vec F S1x1024 .f32) : Vec F S1x1024 .f32 :=
  VS.read (Elt F) (VS.writes (Elt F) VS.junk (runC m c t h2 xs).2.2.1)

/-! ## What the buffers hold after each point -/

/-- After the body at point `n`: the first output's buffer, the second output's buffer (a placeholder nothing consults
    away from the last image, where the window is idle), and the scratch row. -/
def outsAt (c : Dev nD) : (n : ℕ) → n < cfg0.N → Vec F S1024x1024 .f32 × Vec F S1x1024 .f32 × Vec F S1x1024 .f32
  | 0, hn => (out3_A m c ⟨0, hn⟩ (Nat.zero_mod _), VO4.read (Elt F) VO4.junk, sout_A m c ⟨0, hn⟩ (Nat.zero_mod _))
  | n + 1, hn =>
    if h0 : (n + 1) % 16 = 0 then
      (out3_A m c ⟨n + 1, hn⟩ h0, VO4.read (Elt F) VO4.junk, sout_A m c ⟨n + 1, hn⟩ h0)
    else if h2 : (n + 1) % 16 = 15 then
      (out3_C m c ⟨n + 1, hn⟩ h2 (outsAt c n (Nat.lt_of_succ_lt hn)).2.2, out4_C m c ⟨n + 1, hn⟩ h2 (outsAt c n (Nat.lt_of_succ_lt hn)).2.2,
        sout_C m c ⟨n + 1, hn⟩ h2 (outsAt c n (Nat.lt_of_succ_lt hn)).2.2)
    else
      (out3_B m c ⟨n + 1, hn⟩ h0 h2 (outsAt c n (Nat.lt_of_succ_lt hn)).2.2, VO4.read (Elt F) VO4.junk,
        sout_B m c ⟨n + 1, hn⟩ h0 h2 (outsAt c n (Nat.lt_of_succ_lt hn)).2.2)

/-- What the point before `t` left in the scratch row (for `t` not the first point). -/
abbrev prevRow (c : Dev nD) (t : Fin cfg0.N) : Vec F S1x1024 .f32 :=
  (outsAt m c (t.val - 1) (Nat.lt_of_le_of_lt (Nat.sub_le _ _) t.isLt)).2.2

theorem outsAt_A (c : Dev nD) (t : Fin cfg0.N) (h0 : t.val % 16 = 0) :
    outsAt m c t.val t.isLt = (out3_A m c t h0, VO4.read (Elt F) VO4.junk, sout_A m c t h0) := by
  obtain ⟨n, hn⟩ := t
  cases n with
  | zero => exact rfl
  | succ n => exact (dif_pos h0).trans rfl

theorem outsAt_B (c : Dev nD) (t : Fin cfg0.N) (h0 : t.val % 16 ≠ 0) (h2 : t.val % 16 ≠ 15) :
    outsAt m c t.val t.isLt = (out3_B m c t h0 h2 (prevRow m c t), VO4.read (Elt F) VO4.junk, sout_B m c t h0 h2 (prevRow m c t)) := by
  obtain ⟨n, hn⟩ := t
  cases n with
  | zero => exact absurd (Nat.zero_mod _) h0
  | succ n => exact (dif_neg h0).trans ((dif_neg h2).trans rfl)

theorem outsAt_C (c : Dev nD) (t : Fin cfg0.N) (h2 : t.val % 16 = 15) :
    outsAt m c t.val t.isLt = (out3_C m c t h2 (prevRow m c t), out4_C m c t h2 (prevRow m c t), sout_C m c t h2 (prevRow m c t)) := by
  obtain ⟨n, hn⟩ := t
  cases n with
  | zero => exact absurd (show (0 : ℕ) % 16 = 15 from h2) (by decide)
  | succ n =>
    have h2' : (n + 1) % 16 = 15 := h2
    exact (dif_neg (show ¬(n + 1) % 16 = 0 by omega)).trans ((dif_pos h2').trans rfl)

/-! ## The region's invariant, point by point -/

/-- Before point `n`: before the first point the scratch row holds anything; afterwards what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem after4 (c : Dev nD) (t : Fin cfg0.N) : (dats m 0 c).after 4 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt2 t], after2]
theorem leaves3 (c : Dev nD) (t : Fin cfg0.N) : (dats m 0 c).leavesExact 3 t = owns (c : Thread nD τ) (ms3 t) fullShare ((outsAt m c t.val t.isLt).1) := by
  rw [show (dats m 0 c).leavesExact 3 t = owns (c : Thread nD τ) (ms3 t) fullShare ((dats m 0 c).after 3 t) from by
    unfold Dat.leavesExact; rw [liveAt3 t], after3]
theorem leaves4_live (c : Dev nD) (t : Fin cfg0.N) (h2 : t.val % 16 = 15) :
    (dats m 0 c).leavesExact 4 t = owns (c : Thread nD τ) (ms4 t) fullShare ((outsAt m c t.val t.isLt).2.1) := by
  rw [show (dats m 0 c).leavesExact 4 t = owns (c : Thread nD τ) (ms4 t) fullShare ((dats m 0 c).after 4 t) from by
    unfold Dat.leavesExact; rw [liveAt4 t h2], after4]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  by_cases h0 : t.val % 16 = 0
  · rw [Dat.leavesExact_idle (dats m 0 c) 4 t (idleAt4 t (by omega)) (noFlush4 t (by omega))]
    rw [outsAt_A m c t h0]
    unfold out3_A sout_A; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runA m c t h0).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS Hg]
      · isplitl [HS]
        · unfold owns; iexists _; isplitr
          swap; · iexact HS
          ipureintro; exact View.read_writes_of_cover _ _ _ _ _ (scover_A m c t h0)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_A m c t h0)
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runA m c t h0).2.2 _ Set.univ _)
      isplitl [H0]; · iexact H0
      isplitl [H1]; · iexact H1
      isplitl [H2]; · iexact H2
      isplitl [H3]; · iexists _; iexact H3
      isplitl [H4]; · iexact H4
      isplitl [HS]; · iexists _; iexact HS
      iintro ⟨H0, H1, H2, ⟨%e3, H3⟩, H4, ⟨%es, HS⟩⟩
      isplitl [HS Hg]
      · isplitl [HS]
        · unfold owns; iexists _; isplitr
          swap; · iexact HS
          ipureintro; exact View.read_writes_of_cover _ _ _ _ _ (scover_A m c t h0)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_A m c t h0)
      iexists _; iexact H4
  · have hz : t.val ≠ 0 := fun h => h0 (by rw [h])
    by_cases h2 : t.val % 16 = 15
    · rw [leaves4_live m c t h2]
      rw [outsAt_C m c t h2]
      unfold out3_C out4_C sout_C; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runC m c t h2 _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS Hg]
      · isplitl [HS]
        · unfold owns; iexists _; isplitr
          swap; · iexact HS
          ipureintro; exact View.read_writes_of_cover _ _ _ _ _ (scover_C m c t h2 _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C m c t h2 _)
      unfold owns; iexists _; isplitr
      swap; · iexact H4
      ipureintro; exact View.read_writes_of_cover _ _ _ _ _ (cover4_C m c t h2 _)
    · rw [Dat.leavesExact_idle (dats m 0 c) 4 t (idleAt4 t h2) (noFlush4 t h2)]
      rw [outsAt_B m c t h0 h2]
      unfold out3_B sout_B; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runB m c t h0 h2 _).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS Hg]
      · isplitl [HS]
        · unfold owns; iexists _; isplitr
          swap; · iexact HS
          ipureintro; exact View.read_writes_of_cover _ _ _ _ _ (scover_B m c t h0 h2 _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_B m c t h0 h2 _)
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdealFrame.Defs.lean ====
/-
  What the three runs of the kernel body share. The grid is 2 × 16: the first coordinate picks a half of the codebook,
  the second an image; point `t` is image `t % 16` of half `t / 16`. The body branches three times on the image's
  number: at image 0 it stores the block's column minima into the scratch row, at every later image it folds them
  into the row with `min`, and at image 15 it copies the row into the second output's buffer. So every point is in
  one of three cases: the first image (A), a middle image (B), the last image (C). Here: the three conditions as the
  body computes them with their closed forms over the grid, where the second output's window is idle and where it is
  written back, the names of the staging buffers at a point, and the region's invariant with the scratch row as a
  buffer owned at some contents.
-/
import proofs.«119047_j38946763440842_2_alg».proof.Proof.Gen.KernelIdeal.Frame
import proofs.«119047_j38946763440842_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's three conditions -/

/-- "The image is the first one", as the body computes it from the grid coordinates. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 16 = 0 :=
  (by decide +kernel : ∀ t : Fin grid0.N, cond0 (grid0.coords t) ↔ t.val % 16 = 0)

/-- "The image is not the first one". -/
abbrev cond1 (i : grid0.Coords) : Prop := (Scalar.cmpi .ne (Scalar.extui (Scalar.cmpi .sgt (BitVec.ofNat 32 (i 1).val) 0#32)) 0#32) = 1#1
theorem hcond1 : ∀ t : Fin cfg0.N, cond1 (grid0.coords t) ↔ t.val % 16 ≠ 0 :=
  (by decide +kernel : ∀ t : Fin grid0.N, cond1 (grid0.coords t) ↔ t.val % 16 ≠ 0)

/-- "The image is the last one". -/
abbrev cond2 (i : grid0.Coords) : Prop := k0_cond3 i = 1#1
theorem hcond2 : ∀ t : Fin cfg0.N, cond2 (grid0.coords t) ↔ t.val % 16 = 15 :=
  (by decide +kernel : ∀ t : Fin grid0.N, cond2 (grid0.coords t) ↔ t.val % 16 = 15)

/-! ## Where the windows are idle and where the second output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last image the body stores nothing into the second output's buffer, -/
theorem idleAt4 : ∀ t : Fin cfg0.N, t.val % 16 ≠ 15 → cfg0.idle 4 (grid0.coords t) = true := by decide +kernel
/-- and the buffer is not written back there; -/
theorem noFlush4 : ∀ t : Fin cfg0.N, t.val % 16 ≠ 15 → (cfg0.win 4).flush t = false := by decide +kernel
/-- at the last image it stores the whole row. -/
theorem liveAt4 : ∀ t : Fin cfg0.N, t.val % 16 = 15 → cfg0.idle 4 (grid0.coords t) = false := by decide +kernel

/-! ## The buffers at a point -/

/-- One staging buffer of each output window, through which its contents are stated. -/
abbrev VO3 : View sig .tc .vmem S1024x1024 .f32 := (Memref.whole cc0_stg3_0 : Memref sig .tc .vmem S1024x1024 .f32).view
abbrev VO4 : View sig .tc .vmem S1x1024 .f32 := (Memref.whole cc0_stg4_0 : Memref sig .tc .vmem S1x1024 .f32).view
/-- Each window's current staging buffer at point `t`, as the body is called with it, and its wholeness. -/
abbrev ms0 (t : Fin cfg0.N) : Memref sig .tc .vmem S1x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
/-- The scratch row, a whole buffer of the kernel's own, and the view its contents are stated through. -/
abbrev scM : Memref sig .tc .vmem S1x1024 .f32 := Memref.whole cc0_scratch0
abbrev VS : View sig .tc .vmem S1x1024 .f32 := scM.view

/-- The region's invariant, with the scratch row as a buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KernelIdealFrame.RunA.lean ====
/-
  The body run at a point of the FIRST image: it loads the three input blocks, stores the block of clamped squared
  distances whole into the first output's buffer, and stores that block's column minima whole into the scratch row,
  whatever the row held; the second output's buffer is handed back as found. What each buffer ends with is recorded
  as the list of pieces written into it.
-/
import proofs.«119047_j38946763440842_2_alg».proof.Proof.KernelIdealFrame.Defs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunA (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : cond0 i) (hc1 : ¬cond1 i) (hc2 : ¬cond2 i)
    (x0 : Vec F S1x256x1024 .f32) (x1 : Vec F S1024x256 .f32) (x2 : Vec F S1x1024 .f32) :
    Σ' (L3 : List (View.Piece (Elt F) S1024x1024 .f32)), { LS : List (View.Piece (Elt F) S1x1024 .f32) //
      ∀ (xi4 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__vq_kernel i arg2 harg2 arg3 harg3 arg4 harg4 arg5 harg5 arg6 harg6 arg7 harg7) K } := by
  refine ⟨?_, ?_, fun xi4 E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
    obtain rfl := harg2.eq_unread hf0; obtain rfl := harg3.eq_unread hf1; obtain rfl := harg4.eq_unread hf2; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS

end Cert.KernelIdeal.Body

end
-- ==== Proof.KernelIdealFrame.RunB.lean ====
/-
  The body run at a point of a MIDDLE image: as at the first image for the distances, and the scratch row, which holds
  what the point before left (`xs`), is replaced whole by its minimum with the block's column minima; the second
  output's buffer is handed back as found.
-/
import proofs.«119047_j38946763440842_2_alg».proof.Proof.KernelIdealFrame.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunB (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : ¬cond0 i) (hc1 : cond1 i) (hc2 : ¬cond2 i)
    (x0 : Vec F S1x256x1024 .f32) (x1 : Vec F S1024x256 .f32) (x2 : Vec F S1x1024 .f32) (xs : Vec F S1x1024 .f32) :
    Σ' (L3 : List (View.Piece (Elt F) S1024x1024 .f32)), { LS : List (View.Piece (Elt F) S1x1024 .f32) //
      ∀ (xi4 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__vq_kernel i arg2 harg2 arg3 harg3 arg4 harg4 arg5 harg5 arg6 harg6 arg7 harg7) K } := by
  refine ⟨?_, ?_, fun xi4 E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
    obtain rfl := harg2.eq_unread hf0; obtain rfl := harg3.eq_unread hf1; obtain rfl := harg4.eq_unread hf2; obtain rfl := harg6.eq_unread hf4; obtain rfl := harg7.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS

end Cert.KernelIdeal.Body

end
-- ==== Proof.KernelIdealFrame.RunC.lean ====
/-
  The body run at a point of the LAST image: as at a middle image, and then the scratch row just written is copied whole
  into the second output's buffer, whatever that held.
-/
import proofs.«119047_j38946763440842_2_alg».proof.Proof.KernelIdealFrame.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunC (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : ¬cond0 i) (hc1 : cond1 i) (hc2 : cond2 i)
    (x0 : Vec F S1x256x1024 .f32) (x1 : Vec F S1024x256 .f32) (x2 : Vec F S1x1024 .f32) (xs : Vec F S1x1024 .f32) :
    Σ' (L3 : List (View.Piece (Elt F) S1024x1024 .f32)) (L4 : List (View.Piece (Elt F) S1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__vq_kernel i arg2 harg2 arg3 harg3 arg4 harg4 arg5 harg5 arg6 harg6 arg7 harg7) K } := by
  refine ⟨?_, ?_, ?_, fun E K => ?run⟩
  case run =>
    simp only [cc0__vq_kernel_eq_skeleton]; unfold cc0__vq_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg2.eq_unread hf0; obtain rfl := harg3.eq_unread hf1; obtain rfl := harg4.eq_unread hf2; obtain rfl := harg7.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

end Cert.KernelIdeal.Body

end
-- ==== Proof.KernelIdealFrame.Frame.lean ====
/-
  The frame of the program from the three runs of its body. Point by point: which case a point is in is read off its
  number (`t % 16 = 0`: first image; `t % 16 = 15`: last image; else a middle image); what the first output's buffer,
  the second output's buffer and the scratch row hold after the body at point `t` is defined by recursion on `t`, the
  scratch row at a later image folding what the point before left; the region's invariant carries the scratch row at that
  value from one point to the next. The second output's window is idle except at the last image of each half, where the
  row is copied out and written back. From these the pipeline's proof data, the body obligation at every point, the run of
  the whole program, and its frame.
-/
import proofs.«119047_j38946763440842_2_alg».proof.Proof.KernelIdealFrame.RunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a point -/

/-- The first-image run at point `t`, on the point's staging buffers and input blocks. -/
def runA (c : Dev nD) (t : Fin cfg0.N) (h0 : t.val % 16 = 0) :=
  kernelRunA (F := F) c (grid0.coords t) (ms0 t) (hs0 t) (ms1 t) (hs1 t) (ms2 t) (hs2 t) (ms3 t) (hs3 t) (ms4 t) (hs4 t) scM (Memref.isWhole_whole _) ((hcond0 t).mpr h0) (fun h => (hcond1 t).mp h h0) (fun h => by have := (hcond2 t).mp h; omega) (iblk m c 0 t) (iblk m c 1 t) (iblk m c 2 t)
/-- The middle-image run at point `t`, the scratch row at `xs`. -/
def runB (c : Dev nD) (t : Fin cfg0.N) (h0 : t.val % 16 ≠ 0) (h2 : t.val % 16 ≠ 15) (xs : Vec F S1x1024 .f32) :=
  kernelRunB (F := F) c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h0) (fun h => h2 ((hcond2 t).mp h)) (iblk m c 0 t) (iblk m c 1 t) (iblk m c 2 t) xs
/-- The last-image run at point `t`, the scratch row at `xs`. -/
def runC (c : Dev nD) (t : Fin cfg0.N) (h2 : t.val % 16 = 15) (xs : Vec F S1x1024 .f32) :=
  kernelRunC (F := F) c (grid0.coords t) (ms0 t) (hs0 t) (ms1 t) (hs1 t) (ms2 t) (hs2 t) (ms3 t) (hs3 t) (ms4 t) (hs4 t) scM (Memref.isWhole_whole _) (fun h => by have := (hcond0 t).mp h; omega) ((hcond1 t).mpr (by omega)) ((hcond2 t).mpr h2) (iblk m c 0 t) (iblk m c 1 t) (iblk m c 2 t) xs

/-! ## What each run's pieces leave, and that they cover their buffers -/

theorem cover3_A (c : Dev nD) (t : Fin cfg0.N) (h0 : t.val % 16 = 0) (y : S1024x1024.Idx) : ∃ pc ∈ (runA m c t h0).1, y ∈ pc.1.set :=
  View.cover_of_tiledL (runA m c t h0).1 S1024x1024.size (by sl_kernel_rfl) y
theorem scover_A (c : Dev nD) (t : Fin cfg0.N) (h0 : t.val % 16 = 0) (y : S1x1024.Idx) : ∃ pc ∈ (runA m c t h0).2.1, y ∈ pc.1.set :=
  View.cover_of_tiledL (runA m c t h0).2.1 S1x1024.size (by sl_kernel_rfl) y
def out3_A (c : Dev nD) (t : Fin cfg0.N) (h0 : t.val % 16 = 0) : Vec F S1024x1024 .f32 :=
  VO3.read (Elt F) (VO3.writes (Elt F) VO3.junk (runA m c t h0).1)
def sout_A (c : Dev nD) (t : Fin cfg0.N) (h0 : t.val % 16 = 0) : Vec F S1x1024 .f32 :=
  VS.read (Elt F) (VS.writes (Elt F) VS.junk (runA m c t h0).2.1)

theorem cover3_B (c : Dev nD) (t : Fin cfg0.N) (h0 : t.val % 16 ≠ 0) (h2 : t.val % 16 ≠ 15) (xs : Vec F S1x1024 .f32) (y : S1024x1024.Idx) :
    ∃ pc ∈ (runB m c t h0 h2 xs).1, y ∈ pc.1.set :=
  View.cover_of_tiledL (runB m c t h0 h2 xs).1 S1024x1024.size (by sl_kernel_rfl) y
theorem scover_B (c : Dev nD) (t : Fin cfg0.N) (h0 : t.val % 16 ≠ 0) (h2 : t.val % 16 ≠ 15) (xs : Vec F S1x1024 .f32) (y : S1x1024.Idx) :
    ∃ pc ∈ (runB m c t h0 h2 xs).2.1, y ∈ pc.1.set :=
  View.cover_of_tiledL (runB m c t h0 h2 xs).2.1 S1x1024.size (by sl_kernel_rfl) y
def out3_B (c : Dev nD) (t : Fin cfg0.N) (h0 : t.val % 16 ≠ 0) (h2 : t.val % 16 ≠ 15) (xs : Vec F S1x1024 .f32) : Vec F S1024x1024 .f32 :=
  VO3.read (Elt F) (VO3.writes (Elt F) VO3.junk (runB m c t h0 h2 xs).1)
def sout_B (c : Dev nD) (t : Fin cfg0.N) (h0 : t.val % 16 ≠ 0) (h2 : t.val % 16 ≠ 15) (xs : Vec F S1x1024 .f32) : Vec F S1x1024 .f32 :=
  VS.read (Elt F) (VS.writes (Elt F) VS.junk (runB m c t h0 h2 xs).2.1)

theorem cover3_C (c : Dev nD) (t : Fin cfg0.N) (h2 : t.val % 16 = 15) (xs : Vec F S1x1024 .f32) (y : S1024x1024.Idx) :
    ∃ pc ∈ (runC m c t h2 xs).1, y ∈ pc.1.set :=
  View.cover_of_tiledL (runC m c t h2 xs).1 S1024x1024.size (by sl_kernel_rfl) y
theorem cover4_C (c : Dev nD) (t : Fin cfg0.N) (h2 : t.val % 16 = 15) (xs : Vec F S1x1024 .f32) (y : S1x1024.Idx) :
    ∃ pc ∈ (runC m c t h2 xs).2.1, y ∈ pc.1.set :=
  View.cover_of_tiledL (runC m c t h2 xs).2.1 S1x1024.size (by sl_kernel_rfl) y
theorem scover_C (c : Dev nD) (t : Fin cfg0.N) (h2 : t.val % 16 = 15) (xs : Vec F S1x1024 .f32) (y : S1x1024.Idx) :
    ∃ pc ∈ (runC m c t h2 xs).2.2.1, y ∈ pc.1.set :=
  View.cover_of_tiledL (runC m c t h2 xs).2.2.1 S1x1024.size (by sl_kernel_rfl) y
def out3_C (c : Dev nD) (t : Fin cfg0.N) (h2 : t.val % 16 = 15) (xs : Vec F S1x1024 .f32) : Vec F S1024x1024 .f32 :=
  VO3.read (Elt F) (VO3.writes (Elt F) VO3.junk (runC m c t h2 xs).1)
def out4_C (c : Dev nD) (t : Fin cfg0.N) (h2 : t.val % 16 = 15) (xs : Vec F S1x1024 .f32) : Vec F S1x1024 .f32 :=
  VO4.read (Elt F) (VO4.writes (Elt F) VO4.junk (runC m c t h2 xs).2.1)
def sout_C (c : Dev nD) (t : Fin cfg0.N) (h2 : t.val % 16 = 15) (xs : Vec F S1x1024 .f32) : Vec F S1x1024 .f32 :=
  VS.read (Elt F) (VS.writes (Elt F) VS.junk (runC m c t h2 xs).2.2.1)

/-! ## What the buffers hold after each point -/

/-- After the body at point `n`: the first output's buffer, the second output's buffer (a placeholder nothing consults
    away from the last image, where the window is idle), and the scratch row. -/
def outsAt (c : Dev nD) : (n : ℕ) → n < cfg0.N → Vec F S1024x1024 .f32 × Vec F S1x1024 .f32 × Vec F S1x1024 .f32
  | 0, hn => (out3_A m c ⟨0, hn⟩ (Nat.zero_mod _), VO4.read (Elt F) VO4.junk, sout_A m c ⟨0, hn⟩ (Nat.zero_mod _))
  | n + 1, hn =>
    if h0 : (n + 1) % 16 = 0 then
      (out3_A m c ⟨n + 1, hn⟩ h0, VO4.read (Elt F) VO4.junk, sout_A m c ⟨n + 1, hn⟩ h0)
    else if h2 : (n + 1) % 16 = 15 then
      (out3_C m c ⟨n + 1, hn⟩ h2 (outsAt c n (Nat.lt_of_succ_lt hn)).2.2, out4_C m c ⟨n + 1, hn⟩ h2 (outsAt c n (Nat.lt_of_succ_lt hn)).2.2,
        sout_C m c ⟨n + 1, hn⟩ h2 (outsAt c n (Nat.lt_of_succ_lt hn)).2.2)
    else
      (out3_B m c ⟨n + 1, hn⟩ h0 h2 (outsAt c n (Nat.lt_of_succ_lt hn)).2.2, VO4.read (Elt F) VO4.junk,
        sout_B m c ⟨n + 1, hn⟩ h0 h2 (outsAt c n (Nat.lt_of_succ_lt hn)).2.2)

/-- What the point before `t` left in the scratch row (for `t` not the first point). -/
abbrev prevRow (c : Dev nD) (t : Fin cfg0.N) : Vec F S1x1024 .f32 :=
  (outsAt m c (t.val - 1) (Nat.lt_of_le_of_lt (Nat.sub_le _ _) t.isLt)).2.2

theorem outsAt_A (c : Dev nD) (t : Fin cfg0.N) (h0 : t.val % 16 = 0) :
    outsAt m c t.val t.isLt = (out3_A m c t h0, VO4.read (Elt F) VO4.junk, sout_A m c t h0) := by
  obtain ⟨n, hn⟩ := t
  cases n with
  | zero => exact rfl
  | succ n => exact (dif_pos h0).trans rfl

theorem outsAt_B (c : Dev nD) (t : Fin cfg0.N) (h0 : t.val % 16 ≠ 0) (h2 : t.val % 16 ≠ 15) :
    outsAt m c t.val t.isLt = (out3_B m c t h0 h2 (prevRow m c t), VO4.read (Elt F) VO4.junk, sout_B m c t h0 h2 (prevRow m c t)) := by
  obtain ⟨n, hn⟩ := t
  cases n with
  | zero => exact absurd (Nat.zero_mod _) h0
  | succ n => exact (dif_neg h0).trans ((dif_neg h2).trans rfl)

theorem outsAt_C (c : Dev nD) (t : Fin cfg0.N) (h2 : t.val % 16 = 15) :
    outsAt m c t.val t.isLt = (out3_C m c t h2 (prevRow m c t), out4_C m c t h2 (prevRow m c t), sout_C m c t h2 (prevRow m c t)) := by
  obtain ⟨n, hn⟩ := t
  cases n with
  | zero => exact absurd (show (0 : ℕ) % 16 = 15 from h2) (by decide)
  | succ n =>
    have h2' : (n + 1) % 16 = 15 := h2
    exact (dif_neg (show ¬(n + 1) % 16 = 0 by omega)).trans ((dif_pos h2').trans rfl)

/-! ## The region's invariant, point by point -/

/-- Before point `n`: before the first point the scratch row holds anything; afterwards what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem after4 (c : Dev nD) (t : Fin cfg0.N) : (dats m 0 c).after 4 t = (outsAt m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt2 t], after2]
theorem leaves3 (c : Dev nD) (t : Fin cfg0.N) : (dats m 0 c).leavesExact 3 t = owns (c : Thread nD τ) (ms3 t) fullShare ((outsAt m c t.val t.isLt).1) := by
  rw [show (dats m 0 c).leavesExact 3 t = owns (c : Thread nD τ) (ms3 t) fullShare ((dats m 0 c).after 3 t) from by
    unfold Dat.leavesExact; rw [liveAt3 t], after3]
theorem leaves4_live (c : Dev nD) (t : Fin cfg0.N) (h2 : t.val % 16 = 15) :
    (dats m 0 c).leavesExact 4 t = owns (c : Thread nD τ) (ms4 t) fullShare ((outsAt m c t.val t.isLt).2.1) := by
  rw [show (dats m 0 c).leavesExact 4 t = owns (c : Thread nD τ) (ms4 t) fullShare ((dats m 0 c).after 4 t) from by
    unfold Dat.leavesExact; rw [liveAt4 t h2], after4]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  by_cases h0 : t.val % 16 = 0
  · rw [Dat.leavesExact_idle (dats m 0 c) 4 t (idleAt4 t (by omega)) (noFlush4 t (by omega))]
    rw [outsAt_A m c t h0]
    unfold out3_A sout_A; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runA m c t h0).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS Hg]
      · isplitl [HS]
        · unfold owns; iexists _; isplitr
          swap; · iexact HS
          ipureintro; exact View.read_writes_of_cover _ _ _ _ _ (scover_A m c t h0)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_A m c t h0)
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runA m c t h0).2.2 _ Set.univ _)
      isplitl [H0]; · iexact H0
      isplitl [H1]; · iexact H1
      isplitl [H2]; · iexact H2
      isplitl [H3]; · iexists _; iexact H3
      isplitl [H4]; · iexact H4
      isplitl [HS]; · iexists _; iexact HS
      iintro ⟨H0, H1, H2, ⟨%e3, H3⟩, H4, ⟨%es, HS⟩⟩
      isplitl [HS Hg]
      · isplitl [HS]
        · unfold owns; iexists _; isplitr
          swap; · iexact HS
          ipureintro; exact View.read_writes_of_cover _ _ _ _ _ (scover_A m c t h0)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_A m c t h0)
      iexists _; iexact H4
  · have hz : t.val ≠ 0 := fun h => h0 (by rw [h])
    by_cases h2 : t.val % 16 = 15
    · rw [leaves4_live m c t h2]
      rw [outsAt_C m c t h2]
      unfold out3_C out4_C sout_C; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runC m c t h2 _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS Hg]
      · isplitl [HS]
        · unfold owns; iexists _; isplitr
          swap; · iexact HS
          ipureintro; exact View.read_writes_of_cover _ _ _ _ _ (scover_C m c t h2 _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C m c t h2 _)
      unfold owns; iexists _; isplitr
      swap; · iexact H4
      ipureintro; exact View.read_writes_of_cover _ _ _ _ _ (cover4_C m c t h2 _)
    · rw [Dat.leavesExact_idle (dats m 0 c) 4 t (idleAt4 t h2) (noFlush4 t h2)]
      rw [outsAt_B m c t h0 h2]
      unfold out3_B sout_B; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runB m c t h0 h2 _).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS Hg]
      · isplitl [HS]
        · unfold owns; iexists _; isplitr
          swap; · iexact HS
          ipureintro; exact View.read_writes_of_cover _ _ _ _ _ (scover_B m c t h0 h2 _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_B m c t h0 h2 _)
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelIdealValue.Pieces.lean ====
/-
  What each run of the body leaves, as a term of the point's input blocks: the first output's buffer holds the block of
  clamped squared distances computed from them; the scratch row holds the block's column minima at a first image, and the
  minimum of what it held with the block's column minima at a later image; at a last image the second output's buffer
  holds that same new row (it is loaded back after the store and copied). Then the same point by point: the values the
  frame's recursion names are these terms of the blocks at each point.
-/
import proofs.«119047_j38946763440842_2_alg».proof.Proof.KernelIdealFrame.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## The runs' pieces as terms of the loaded blocks -/

theorem runA_out3 (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : cond0 i) (hc1 : ¬cond1 i) (hc2 : ¬cond2 i)
    (x0 : Vec F S1x256x1024 .f32) (x1 : Vec F S1024x256 .f32) (x2 : Vec F S1x1024 .f32) :
    VO3.read (Elt F) (VO3.writes (Elt F) VO3.junk (kernelRunA c i arg2 harg2 arg3 harg3 arg4 harg4 arg5 harg5 arg6 harg6 arg7 harg7 hc0 hc1 hc2 x0 x1 x2).1) = k0_pay1 x0 x1 x2 := by
  rw [View.read_writes_eq_canon _ _ _ (View.cover_of_tiledL _ S1024x1024.size (by sl_kernel_rfl))]
  unfold kernelRunA
  dsimp only
  try sl_unfold_words
  rw [View.canon_unit_zero hz2]
  simp only [View.readAt_eq_ld, harg2.read_unread, harg3.read_unread, harg4.read_unread, harg7.read_unread,
    View.ld_unit_zero (S := S1x256x1024) hz3, View.ld_unit_zero (S := S1024x256) hz2, View.ld_unit_zero (S := S1x1024) hz2]

theorem runA_row (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : cond0 i) (hc1 : ¬cond1 i) (hc2 : ¬cond2 i)
    (x0 : Vec F S1x256x1024 .f32) (x1 : Vec F S1024x256 .f32) (x2 : Vec F S1x1024 .f32) :
    VS.read (Elt F) (VS.writes (Elt F) VS.junk (kernelRunA c i arg2 harg2 arg3 harg3 arg4 harg4 arg5 harg5 arg6 harg6 arg7 harg7 hc0 hc1 hc2 x0 x1 x2).2.1) = k0_pay3 x0 x1 x2 := by
  rw [View.read_writes_eq_canon _ _ _ (View.cover_of_tiledL _ S1x1024.size (by sl_kernel_rfl))]
  unfold kernelRunA
  dsimp only
  try sl_unfold_words
  rw [View.canon_unit_zero hz2]
  simp only [View.readAt_eq_ld, harg2.read_unread, harg3.read_unread, harg4.read_unread, harg7.read_unread,
    View.ld_unit_zero (S := S1x256x1024) hz3, View.ld_unit_zero (S := S1024x256) hz2, View.ld_unit_zero (S := S1x1024) hz2]

theorem runB_out3 (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : ¬cond0 i) (hc1 : cond1 i) (hc2 : ¬cond2 i)
    (x0 : Vec F S1x256x1024 .f32) (x1 : Vec F S1024x256 .f32) (x2 : Vec F S1x1024 .f32) (xs : Vec F S1x1024 .f32) :
    VO3.read (Elt F) (VO3.writes (Elt F) VO3.junk (kernelRunB c i arg2 harg2 arg3 harg3 arg4 harg4 arg5 harg5 arg6 harg6 arg7 harg7 hc0 hc1 hc2 x0 x1 x2 xs).1) = k0_pay1 x0 x1 x2 := by
  rw [View.read_writes_eq_canon _ _ _ (View.cover_of_tiledL _ S1024x1024.size (by sl_kernel_rfl))]
  unfold kernelRunB
  dsimp only
  try sl_unfold_words
  rw [View.canon_unit_zero hz2]
  simp only [View.readAt_eq_ld, harg2.read_unread, harg3.read_unread, harg4.read_unread, harg7.read_unread,
    View.ld_unit_zero (S := S1x256x1024) hz3, View.ld_unit_zero (S := S1024x256) hz2, View.ld_unit_zero (S := S1x1024) hz2]

theorem runB_row (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : ¬cond0 i) (hc1 : cond1 i) (hc2 : ¬cond2 i)
    (x0 : Vec F S1x256x1024 .f32) (x1 : Vec F S1024x256 .f32) (x2 : Vec F S1x1024 .f32) (xs : Vec F S1x1024 .f32) :
    VS.read (Elt F) (VS.writes (Elt F) VS.junk (kernelRunB c i arg2 harg2 arg3 harg3 arg4 harg4 arg5 harg5 arg6 harg6 arg7 harg7 hc0 hc1 hc2 x0 x1 x2 xs).2.1) = k0_pay4 x0 x1 x2 xs := by
  rw [View.read_writes_eq_canon _ _ _ (View.cover_of_tiledL _ S1x1024.size (by sl_kernel_rfl))]
  unfold kernelRunB
  dsimp only
  try sl_unfold_words
  rw [View.canon_unit_zero hz2]
  simp only [View.readAt_eq_ld, harg2.read_unread, harg3.read_unread, harg4.read_unread, harg7.read_unread,
    View.ld_unit_zero (S := S1x256x1024) hz3, View.ld_unit_zero (S := S1024x256) hz2, View.ld_unit_zero (S := S1x1024) hz2]

theorem runC_out3 (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : ¬cond0 i) (hc1 : cond1 i) (hc2 : cond2 i)
    (x0 : Vec F S1x256x1024 .f32) (x1 : Vec F S1024x256 .f32) (x2 : Vec F S1x1024 .f32) (xs : Vec F S1x1024 .f32) :
    VO3.read (Elt F) (VO3.writes (Elt F) VO3.junk (kernelRunC c i arg2 harg2 arg3 harg3 arg4 harg4 arg5 harg5 arg6 harg6 arg7 harg7 hc0 hc1 hc2 x0 x1 x2 xs).1) = k0_pay1 x0 x1 x2 := by
  rw [View.read_writes_eq_canon _ _ _ (View.cover_of_tiledL _ S1024x1024.size (by sl_kernel_rfl))]
  unfold kernelRunC
  dsimp only
  try sl_unfold_words
  rw [View.canon_unit_zero hz2]
  simp only [View.readAt_eq_ld, harg2.read_unread, harg3.read_unread, harg4.read_unread, harg7.read_unread,
    View.ld_unit_zero (S := S1x256x1024) hz3, View.ld_unit_zero (S := S1024x256) hz2, View.ld_unit_zero (S := S1x1024) hz2]

theorem runC_out4 (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : ¬cond0 i) (hc1 : cond1 i) (hc2 : cond2 i)
    (x0 : Vec F S1x256x1024 .f32) (x1 : Vec F S1024x256 .f32) (x2 : Vec F S1x1024 .f32) (xs : Vec F S1x1024 .f32) :
    VO4.read (Elt F) (VO4.writes (Elt F) VO4.junk (kernelRunC c i arg2 harg2 arg3 harg3 arg4 harg4 arg5 harg5 arg6 harg6 arg7 harg7 hc0 hc1 hc2 x0 x1 x2 xs).2.1) = k0_pay4 x0 x1 x2 xs := by
  rw [View.read_writes_eq_canon _ _ _ (View.cover_of_tiledL _ S1x1024.size (by sl_kernel_rfl))]
  unfold kernelRunC
  dsimp only
  try sl_unfold_words
  rw [View.canon_unit_zero hz2, View.readCov_unit_zero (S := S1x1024) _ hz2]
  simp only [View.readAt_eq_ld, harg2.read_unread, harg3.read_unread, harg4.read_unread, harg7.read_unread,
    View.ld_unit_zero (S := S1x256x1024) hz3, View.ld_unit_zero (S := S1024x256) hz2, View.ld_unit_zero (S := S1x1024) hz2]

theorem runC_row (c : Dev nD) (i : grid0.Coords) (arg2 : Memref sig .tc .vmem S1x256x1024 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (hc0 : ¬cond0 i) (hc1 : cond1 i) (hc2 : cond2 i)
    (x0 : Vec F S1x256x1024 .f32) (x1 : Vec F S1024x256 .f32) (x2 : Vec F S1x1024 .f32) (xs : Vec F S1x1024 .f32) :
    VS.read (Elt F) (VS.writes (Elt F) VS.junk (kernelRunC c i arg2 harg2 arg3 harg3 arg4 harg4 arg5 harg5 arg6 harg6 arg7 harg7 hc0 hc1 hc2 x0 x1 x2 xs).2.2.1) = k0_pay4 x0 x1 x2 xs := by
  rw [View.read_writes_eq_canon _ _ _ (View.cover_of_tiledL _ S1x1024.size (by sl_kernel_rfl))]
  unfold kernelRunC
  dsimp only
  try sl_unfold_words
  rw [View.canon_unit_zero hz2]
  simp only [View.readAt_eq_ld, harg2.read_unread, harg3.read_unread, harg4.read_unread, harg7.read_unread,
    View.ld_unit_zero (S := S1x256x1024) hz3, View.ld_unit_zero (S := S1024x256) hz2, View.ld_unit_zero (S := S1x1024) hz2]

/-! ## Point by point -/

variable (m : (ℓ : Loc nD τ sig) → Buf (Elt F) ℓ)

/-- The block of distances the body computes at point `t`. -/
abbrev distBlk (c : Dev nD) (t : Fin cfg0.N) : Vec F S1024x1024 .f32 := k0_pay1 (iblk m c 0 t) (iblk m c 1 t) (iblk m c 2 t)

theorem out3_A_eq (c : Dev nD) (t : Fin cfg0.N) (h0 : t.val % 16 = 0) : out3_A m c t h0 = distBlk m c t := by
  unfold out3_A runA
  exact runA_out3 (F := F) c (grid0.coords t) (ms0 t) (hs0 t) (ms1 t) (hs1 t) (ms2 t) (hs2 t) (ms3 t) (hs3 t) (ms4 t) (hs4 t) scM (Memref.isWhole_whole _) _ _ _ (iblk m c 0 t) (iblk m c 1 t) (iblk m c 2 t)
theorem sout_A_eq (c : Dev nD) (t : Fin cfg0.N) (h0 : t.val % 16 = 0) :
    sout_A m c t h0 = k0_pay3 (iblk m c 0 t) (iblk m c 1 t) (iblk m c 2 t) := by
  unfold sout_A runA
  exact runA_row (F := F) c (grid0.coords t) (ms0 t) (hs0 t) (ms1 t) (hs1 t) (ms2 t) (hs2 t) (ms3 t) (hs3 t) (ms4 t) (hs4 t) scM (Memref.isWhole_whole _) _ _ _ (iblk m c 0 t) (iblk m c 1 t) (iblk m c 2 t)
theorem out3_B_eq (c : Dev nD) (t : Fin cfg0.N) (h0 : t.val % 16 ≠ 0) (h2 : t.val % 16 ≠ 15) (xs : Vec F S1x1024 .f32) :
    out3_B m c t h0 h2 xs = distBlk m c t := by
  unfold out3_B runB
  exact runB_out3 (F := F) c (grid0.coords t) (ms0 t) (hs0 t) (ms1 t) (hs1 t) (ms2 t) (hs2 t) (ms3 t) (hs3 t) (ms4 t) (hs4 t) scM (Memref.isWhole_whole _) _ _ _ (iblk m c 0 t) (iblk m c 1 t) (iblk m c 2 t) xs
theorem sout_B_eq (c : Dev nD) (t : Fin cfg0.N) (h0 : t.val % 16 ≠ 0) (h2 : t.val % 16 ≠ 15) (xs : Vec F S1x1024 .f32) :
    sout_B m c t h0 h2 xs = k0_pay4 (iblk m c 0 t) (iblk m c 1 t) (iblk m c 2 t) xs := by
  unfold sout_B runB
  exact runB_row (F := F) c (grid0.coords t) (ms0 t) (hs0 t) (ms1 t) (hs1 t) (ms2 t) (hs2 t) (ms3 t) (hs3 t) (ms4 t) (hs4 t) scM (Memref.isWhole_whole _) _ _ _ (iblk m c 0 t) (iblk m c 1 t) (iblk m c 2 t) xs
theorem out3_C_eq (c : Dev nD) (t : Fin cfg0.N) (h2 : t.val % 16 = 15) (xs : Vec F S1x1024 .f32) :
    out3_C m c t h2 xs = distBlk m c t := by
  unfold out3_C runC
  exact runC_out3 (F := F) c (grid0.coords t) (ms0 t) (hs0 t) (ms1 t) (hs1 t) (ms2 t) (hs2 t) (ms3 t) (hs3 t) (ms4 t) (hs4 t) scM (Memref.isWhole_whole _) _ _ _ (iblk m c 0 t) (iblk m c 1 t) (iblk m c 2 t) xs
theorem out4_C_eq (c : Dev nD) (t : Fin cfg0.N) (h2 : t.val % 16 = 15) (xs : Vec F S1x1024 .f32) :
    out4_C m c t h2 xs = k0_pay4 (iblk m c 0 t) (iblk m c 1 t) (iblk m c 2 t) xs := by
  unfold out4_C runC
  exact runC_out4 (F := F) c (grid0.coords t) (ms0 t) (hs0 t) (ms1 t) (hs1 t) (ms2 t) (hs2 t) (ms3 t) (hs3 t) (ms4 t) (hs4 t) scM (Memref.isWhole_whole _) _ _ _ (iblk m c 0 t) (iblk m c 1 t) (iblk m c 2 t) xs
theorem sout_C_eq (c : Dev nD) (t : Fin cfg0.N) (h2 : t.val % 16 = 15) (xs : Vec F S1x1024 .f32) :
    sout_C m c t h2 xs = k0_pay4 (iblk m c 0 t) (iblk m c 1 t) (iblk m c 2 t) xs := by
  unfold sout_C runC
  exact runC_row (F := F) c (grid0.coords t) (ms0 t) (hs0 t) (ms1 t) (hs1 t) (ms2 t) (hs2 t) (ms3 t) (hs3 t) (ms4 t) (hs4 t) scM (Memref.isWhole_whole _) _ _ _ (iblk m c 0 t) (iblk m c 1 t) (iblk m c 2 t) xs

/-- After every point the first output's buffer holds the point's block of distances. -/
theorem outsAt_dist (c : Dev nD) (t : Fin cfg0.N) : (outsAt m c t.val t.isLt).1 = distBlk m c t := by
  by_cases h0 : t.val % 16 = 0
  · rw [outsAt_A m c t h0]; dsimp only; exact out3_A_eq m c t h0
  · by_cases h2 : t.val % 16 = 15
    · rw [outsAt_C m c t h2]; dsimp only; exact out3_C_eq m c t h2 _
    · rw [outsAt_B m c t h0 h2]; dsimp only; exact out3_B_eq m c t h0 h2 _

/-- After a first image the scratch row holds the block's column minima. -/
theorem outsAt_row_first (c : Dev nD) (t : Fin cfg0.N) (h0 : t.val % 16 = 0) :
    (outsAt m c t.val t.isLt).2.2 = k0_pay3 (iblk m c 0 t) (iblk m c 1 t) (iblk m c 2 t) := by
  rw [outsAt_A m c t h0]; dsimp only; exact sout_A_eq m c t h0

/-- After a later image it holds the minimum of what the point before left with the block's column minima. -/
theorem outsAt_row_later (c : Dev nD) (t : Fin cfg0.N) (h0 : t.val % 16 ≠ 0) :
    (outsAt m c t.val t.isLt).2.2 = k0_pay4 (iblk m c 0 t) (iblk m c 1 t) (iblk m c 2 t) (prevRow m c t) := by
  by_cases h2 : t.val % 16 = 15
  · rw [outsAt_C m c t h2]; dsimp only; exact sout_C_eq m c t h2 _
  · rw [outsAt_B m c t h0 h2]; dsimp only; exact sout_B_eq m c t h0 h2 _

/-- After a last image the second output's buffer holds the scratch row. -/
theorem outsAt_out_last (c : Dev nD) (t : Fin cfg0.N) (h2 : t.val % 16 = 15) :
    (outsAt m c t.val t.isLt).2.1 = (outsAt m c t.val t.isLt).2.2 := by
  rw [outsAt_C m c t h2]
  dsimp only
  exact (out4_C_eq m c t h2 _).trans (sout_C_eq m c t h2 _).symm

end Cert.KernelIdeal.Body

end
-- ==== Proof.KernelIdealValue.HostStages.lean ====
/-
  The two arrays the host computes before the launch, read at an index. The first is the images with each 32 × 32 grid
  flattened to 1024 positions: position `p` of channel `d` of image `b` is grid row `p / 32`, column `p % 32`. The second
  is the row of the codes' squared norms: entry `k` is the sum over the 256 coordinates of code `k` of their squares.
-/
import proofs.«119047_j38946763440842_2_alg».proof.Proof.Gen.KernelIdeal.Frame
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The images and the codebook as launched, as arrays of extended reals. -/
abbrev zArr (c : Dev nD) : S16x256x32x32.Idx → EReal := m ((c : Thread nD τ).loc main_arg0)
abbrev eArr (c : Dev nD) : S2048x256.Idx → EReal := m ((c : Thread nD τ).loc main_arg1)

theorem V_v0_eq (c : Dev nD) :
    (V m c main_v0 : S16x256x1024.Idx → EReal) = shapeCast S16x256x1024 (zArr m c) shapeCasts_S16x256x32x32_S16x256x1024 := by
  show StableHlo.after hostOps0 (fun b => m (c, b)) (Proc.devRef .tc main_v0) = _
  after_results
  rfl

/-- The flattened images at (image, channel, position). -/
theorem V_v0_apply (c : Dev nD) (b : Fin 16) (d : Fin 256) (p : Fin 1024) :
    (V m c main_v0 : S16x256x1024.Idx → EReal) (ix3 b d p)
      = zArr m c (ix4 b d (⟨p.val / 32, by omega⟩ : Fin 32) (⟨p.val % 32, Nat.mod_lt _ (by decide)⟩ : Fin 32)) := by
  rw [V_v0_eq]
  refine shapeCast_apply _ _ _ _ ?_
  rw [Shape.rowMajor_val_four, Shape.rowMajor_val_three]
  show ((b.val * 256 + d.val) * 32 + p.val / 32) * 32 + p.val % 32 = (b.val * 256 + d.val) * 1024 + p.val
  omega

theorem V_v4_eq (c : Dev nD) :
    (V m c main_v4 : S1x2048.Idx → EReal)
      = transpose S1x2048 [1, 0] (broadcastInDim S2048x1 ![0] bcast_S2048_S2048x1_0
          (Host.reduceAdd (F := Ideal) (mulf (eArr m c) (eArr m c)) (constant (F := Ideal) S_ .f32 0x00000000#32) reducesTo_S2048x256_S2048_d1 h_S_))
          transposes_S2048x1_S1x2048_1_0 := by
  show StableHlo.after hostOps0 (fun b => m (c, b)) (Proc.devRef .tc main_v4) = _
  after_results

/-- The row of squared norms at code `k`. -/
theorem V_v4_apply (c : Dev nD) (k : Fin 2048) :
    (V m c main_v4 : S1x2048.Idx → EReal) (ix2 (0 : Fin 1) k) = ∑ d : Fin 256, eArr m c (ix2 k d) * eArr m c (ix2 k d) := by
  rw [V_v4_eq]
  generalize hy : (mulf (F := Ideal) (φ := .f32) (eArr m c : FVec Ideal S2048x256 .f32) (eArr m c) : FVec Ideal S2048x256 .f32) = y
  rw [transpose_apply [1, 0] _ transposes_S2048x1_S1x2048_1_0 (ix2 (0 : Fin 1) k) (ix2 k (0 : Fin 1))
    (fun b => match b with | ⟨0, _⟩ => rfl | ⟨1, _⟩ => rfl)]
  rw [broadcastInDim_apply ![0] bcast_S2048_S2048x1_0 _ (ix2 k (0 : Fin 1)) (ix1 k)
    (fun a => match a with | ⟨0, _⟩ => by show k.val = if (2048 : Nat) = 1 then 0 else k.val; rw [if_neg (by decide)])]
  simp only [Host.reduceAdd, Ideal.hostReduceAdd_def]
  rw [Ideal.hostReduceAdd_single reducesTo_S2048x256_S2048_d1 (by decide)]
  show Ideal.ofBits .f32 0x00000000#32 + _ = _
  rw [Ideal.ofBits_zero_f32, zero_add]
  refine Finset.sum_congr rfl fun d _ => ?_
  subst hy
  show eArr m c _ * eArr m c _ = _
  have e : (Shape.Reduces.lift (s := S2048x256) (t := S2048) (a := 1) (by decide) (ix1 k) d) = ix2 k d :=
    funext fun a => Fin.ext (by match a with | ⟨0, _⟩ => rfl | ⟨1, _⟩ => rfl)
  rw [e]
  rfl

end Cert.KernelIdeal.Body

end
-- ==== Proof.KernelIdealValue.WindowIndex.lean ====
/-
  Where each window's block sits in its array, in closed form over the point number.

  The grid has 2 × 16 points; point t works on half t / 16 of the codebook and on image t % 16. A block's coordinate
  in its array is always the block index times the block's size plus the coordinate inside the block. The distance
  matrix's blocks (1024 × 1024, written back at every point) tile it, and the row of least distances' two halves are
  written back at the last image's points, so each array's indices are covered by a point that writes it back.
-/
import proofs.«119047_j38946763440842_2_alg».proof.Proof.Gen.KernelIdeal.Frame
import Idealize.ShloMosaic.Lib.Pipeline.Value
import Idealize.ShloMosaic.Lib.ValueIdx

noncomputable section

namespace Cert.KernelIdeal.Payload

open Cert.KernelIdeal Cert.KernelIdeal.Gen
open Idealize.ShloMosaic Idealize.ShloMosaic.ValueIdx Idealize.ShloMosaic.Pipeline

/-! ## The index maps, decided once over the grid -/

/-- A point's number is below 32. -/
theorem point_lt (t : Fin cfg0.N) : t.val < 32 := Nat.lt_of_lt_of_eq t.isLt N_0

/-- The input blocks: image t % 16, all channels, all positions. -/
theorem index0 : ∀ t : Fin cfg0.N, win0_0.index t 0 = t.val % 16 ∧ win0_0.index t 1 = 0 ∧ win0_0.index t 2 = 0 :=
  (by decide +kernel : ∀ t : Fin grid0.N, win0_0.index t 0 = t.val % 16 ∧ win0_0.index t 1 = 0 ∧ win0_0.index t 2 = 0)
/-- The codebook's blocks: half t / 16. -/
theorem index1 : ∀ t : Fin cfg0.N, win0_1.index t 0 = t.val / 16 ∧ win0_1.index t 1 = 0 :=
  (by decide +kernel : ∀ t : Fin grid0.N, win0_1.index t 0 = t.val / 16 ∧ win0_1.index t 1 = 0)
/-- The codes' squared norms: half t / 16 of the row. -/
theorem index2 : ∀ t : Fin cfg0.N, win0_2.index t 0 = 0 ∧ win0_2.index t 1 = t.val / 16 :=
  (by decide +kernel : ∀ t : Fin grid0.N, win0_2.index t 0 = 0 ∧ win0_2.index t 1 = t.val / 16)
/-- The distance matrix's blocks: block row t % 16, block column t / 16. -/
theorem index3 : ∀ t : Fin cfg0.N, win0_3.index t 0 = t.val % 16 ∧ win0_3.index t 1 = t.val / 16 :=
  (by decide +kernel : ∀ t : Fin grid0.N, win0_3.index t 0 = t.val % 16 ∧ win0_3.index t 1 = t.val / 16)
/-- The row of least distances: half t / 16. -/
theorem index4 : ∀ t : Fin cfg0.N, win0_4.index t 0 = 0 ∧ win0_4.index t 1 = t.val / 16 :=
  (by decide +kernel : ∀ t : Fin grid0.N, win0_4.index t 0 = 0 ∧ win0_4.index t 1 = t.val / 16)

/-! ## A block's index in its array -/

/-- Input block t holds image t % 16: position (0, d, p) of the block is (t % 16, d, p) of the array. -/
theorem emb0 (t : Fin cfg0.N) (d : Fin 256) (p : Fin 1024) :
    (((cfg0.win 0).blk t).view.emb (ix3 (0 : Fin 1) d p) : S16x256x1024.Idx)
      = ix3 (⟨t.val % 16, Nat.mod_lt _ (by decide)⟩ : Fin 16) d p := by
  funext a
  apply Fin.ext
  match a with
  | ⟨0, _⟩ => show win0_0.index t 0 * 1 + 1 * 0 = t.val % 16; rw [(index0 t).1]; omega
  | ⟨1, _⟩ => show win0_0.index t 1 * 256 + 1 * d.val = d.val; rw [(index0 t).2.1]; omega
  | ⟨2, _⟩ => show win0_0.index t 2 * 1024 + 1 * p.val = p.val; rw [(index0 t).2.2]; omega

/-- Codebook block t holds half t / 16: row r of the block is row t / 16 · 1024 + r of the codebook. -/
theorem emb1 (t : Fin cfg0.N) (r : Fin 1024) (d : Fin 256) :
    (((cfg0.win 1).blk t).view.emb (ix2 r d) : S2048x256.Idx)
      = ix2 (⟨t.val / 16 * 1024 + r.val, by have := point_lt t; omega⟩ : Fin 2048) d := by
  funext a
  apply Fin.ext
  match a with
  | ⟨0, _⟩ => show win0_1.index t 0 * 1024 + 1 * r.val = t.val / 16 * 1024 + r.val; rw [(index1 t).1]; omega
  | ⟨1, _⟩ => show win0_1.index t 1 * 256 + 1 * d.val = d.val; rw [(index1 t).2]; omega

/-- The squared norms' block t holds half t / 16 of the row. -/
theorem emb2 (t : Fin cfg0.N) (j : Fin 1024) :
    (((cfg0.win 2).blk t).view.emb (ix2 (0 : Fin 1) j) : S1x2048.Idx)
      = ix2 (0 : Fin 1) (⟨t.val / 16 * 1024 + j.val, by have := point_lt t; omega⟩ : Fin 2048) := by
  funext a
  apply Fin.ext
  match a with
  | ⟨0, _⟩ => show win0_2.index t 0 * 1 + 1 * 0 = 0; rw [(index2 t).1]
  | ⟨1, _⟩ => show win0_2.index t 1 * 1024 + 1 * j.val = t.val / 16 * 1024 + j.val; rw [(index2 t).2]; omega

/-- The distance matrix's block t: rows t % 16 · 1024 …, columns t / 16 · 1024 …. -/
theorem emb3 (t : Fin cfg0.N) (r j : Fin 1024) :
    (((cfg0.win 3).blk t).view.emb (ix2 r j) : S16384x2048.Idx)
      = ix2 (⟨t.val % 16 * 1024 + r.val, by omega⟩ : Fin 16384)
          (⟨t.val / 16 * 1024 + j.val, by have := point_lt t; omega⟩ : Fin 2048) := by
  funext a
  apply Fin.ext
  match a with
  | ⟨0, _⟩ => show win0_3.index t 0 * 1024 + 1 * r.val = t.val % 16 * 1024 + r.val; rw [(index3 t).1]; omega
  | ⟨1, _⟩ => show win0_3.index t 1 * 1024 + 1 * j.val = t.val / 16 * 1024 + j.val; rw [(index3 t).2]; omega

/-- The row of least distances' block t holds half t / 16 of the row. -/
theorem emb4 (t : Fin cfg0.N) (j : Fin 1024) :
    (((cfg0.win 4).blk t).view.emb (ix2 (0 : Fin 1) j) : S1x2048.Idx)
      = ix2 (0 : Fin 1) (⟨t.val / 16 * 1024 + j.val, by have := point_lt t; omega⟩ : Fin 2048) := by
  funext a
  apply Fin.ext
  match a with
  | ⟨0, _⟩ => show win0_4.index t 0 * 1 + 1 * 0 = 0; rw [(index4 t).1]
  | ⟨1, _⟩ => show win0_4.index t 1 * 1024 + 1 * j.val = t.val / 16 * 1024 + j.val; rw [(index4 t).2]; omega

/-! ## The write-backs cover the two result arrays -/

/-- An index of the distance matrix lies in the block of any point with its block row and block column. -/
theorem mem_blk3 (t : Fin cfg0.N) (i : S16384x2048.Idx) (h0 : (i 0).val / 1024 = t.val % 16)
    (h1 : (i 1).val / 1024 = t.val / 16) : i ∈ ((cfg0.win 3).blk t).view.set := by
  show i ∈ ((View.whole main_v5_0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(index3 t).1]; omega
  | ⟨1, _⟩ =>
    show win0_3.index t 1 * 1024 ≤ (i 1).val ∧ (i 1).val < win0_3.index t 1 * 1024 + 1024
    rw [(index3 t).2]; omega

/-- Every index of the distance matrix is in the block of a point that writes it back: the point of its block
    column's half and its block row's image. -/
theorem cover3 : ∀ i : S16384x2048.Idx, ∃ t : Fin cfg0.N, (cfg0.win 3).flush t = true ∧ i ∈ ((cfg0.win 3).blk t).view.set :=
  fun i =>
    have h0 : (i 0).val < 16384 := (i 0).isLt
    have h1 : (i 1).val < 2048 := (i 1).isLt
    have ht : (i 1).val / 1024 * 16 + (i 0).val / 1024 < cfg0.N := Nat.lt_of_lt_of_eq (by omega) N_0.symm
    ⟨⟨(i 1).val / 1024 * 16 + (i 0).val / 1024, ht⟩, flush0_3 _,
      mem_blk3 _ i (by show (i 0).val / 1024 = ((i 1).val / 1024 * 16 + (i 0).val / 1024) % 16; omega)
        (by show (i 1).val / 1024 = ((i 1).val / 1024 * 16 + (i 0).val / 1024) / 16; omega)⟩

/-- An index of the row of least distances lies in the block of any point with its half. -/
theorem mem_blk4 (t : Fin cfg0.N) (i : S1x2048.Idx) (h1 : (i 1).val / 1024 = t.val / 16) :
    i ∈ ((cfg0.win 4).blk t).view.set := by
  have h0 : (i 0).val < 1 := (i 0).isLt
  show i ∈ ((View.whole main_v5_1).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [(index4 t).1]; omega
  | ⟨1, _⟩ =>
    show win0_4.index t 1 * 1024 ≤ (i 1).val ∧ (i 1).val < win0_4.index t 1 * 1024 + 1024
    rw [(index4 t).2]; omega

/-- Every index of the row of least distances is in the block of a point that writes it back: the last image's
    point of its half. -/
theorem cover4 : ∀ i : S1x2048.Idx, ∃ t : Fin cfg0.N, (cfg0.win 4).flush t = true ∧ i ∈ ((cfg0.win 4).blk t).view.set :=
  fun i =>
    have h1 : (i 1).val < 2048 := (i 1).isLt
    have ht : (i 1).val / 1024 * 16 + 15 < cfg0.N := Nat.lt_of_lt_of_eq (by omega) N_0.symm
    ⟨⟨(i 1).val / 1024 * 16 + 15, ht⟩,
      (flush0_4 _).mpr (by show ((i 1).val / 1024 * 16 + 15) % 16 = 15; omega),
      mem_blk4 _ i (by show (i 1).val / 1024 = ((i 1).val / 1024 * 16 + 15) / 16; omega)⟩

end Cert.KernelIdeal.Payload

end
-- ==== Proof.Spec.lean ====
/-
  The mathematics both programs compute, stated once, over the two argument arrays read as extended reals.

  The input `z` holds 16 images of 256 channels on a 32 × 32 grid; flattening the images' positions gives 16384 vectors
  of dimension 256 (vector `n` is image `n / 1024` at row `n % 1024 / 32`, column `n % 32`). The codebook `e` holds
  2048 vectors of dimension 256. The first result is the matrix of clamped squared distances
      dist n k = max (‖z_n‖² + ‖e_k‖² − 2 · ⟨z_n, e_k⟩) 0,
  the second the mean over the codes `k` of the least distance from any input vector to code `k`.
-/
import Idealize.ShloMosaic.PureOps.Ideal
import Idealize.ShloMosaic.PureOps.Ideal.Laws
import Idealize.ShloMosaic.Lib.ValueIdx

noncomputable section

open scoped BigOperators

namespace Cert.VQSpec

open Idealize.ShloMosaic Idealize.ShloMosaic.ValueIdx

/-- The shape of the images, of the codebook, of the distance matrix, and the scalar shape. -/
abbrev ZS : Shape := ⟨4, ![16, 256, 32, 32]⟩
abbrev ES : Shape := ⟨2, ![2048, 256]⟩
abbrev DS : Shape := ⟨2, ![16384, 2048]⟩
abbrev S0 : Shape := ⟨0, ![]⟩

/-- Channel `d` of input vector `n`: image `n / 1024`, row `n % 1024 / 32`, column `n % 32`. -/
def zAt (z : ZS.Idx → EReal) (n : Fin 16384) (d : Fin 256) : EReal :=
  z (ix4 (⟨n.val / 1024, by omega⟩ : Fin 16) d (⟨n.val % 1024 / 32, by omega⟩ : Fin 32) (⟨n.val % 32, by omega⟩ : Fin 32))

/-- Coordinate `d` of code `k`. -/
def eAt (e : ES.Idx → EReal) (k : Fin 2048) (d : Fin 256) : EReal := e (ix2 k d)

/-- The clamped squared distance from input vector `n` to code `k`, by the expansion of the square. -/
def sqDist (z : ZS.Idx → EReal) (e : ES.Idx → EReal) (n : Fin 16384) (k : Fin 2048) : EReal :=
  max (((∑ d : Fin 256, zAt z n d * zAt z n d) + (∑ d : Fin 256, eAt e k d * eAt e k d))
        - Ideal.ofBits .f32 0x40000000#32 * ∑ d : Fin 256, zAt z n d * eAt e k d) 0

/-- The first result: the distance matrix as an array. -/
def distArr (z : ZS.Idx → EReal) (e : ES.Idx → EReal) : DS.Idx → EReal := fun i => sqDist z e (i 0) (i 1)

/-- The least distance from any input vector to code `k` (the infimum over the 16384 vectors; the empty infimum would be `+∞`). -/
def colMin (z : ZS.Idx → EReal) (e : ES.Idx → EReal) (k : Fin 2048) : EReal :=
  (Finset.univ : Finset (Fin 16384)).inf fun n => sqDist z e n k

/-- The sum over the codes of their least distances. -/
def minSum (z : ZS.Idx → EReal) (e : ES.Idx → EReal) : EReal := ∑ k : Fin 2048, colMin z e k

/-- The second result: that sum divided by the number of codes, as a scalar array. -/
def lossArr (z : ZS.Idx → EReal) (e : ES.Idx → EReal) : S0.Idx → EReal :=
  Host.divf (F := Ideal) (fun _ => minSum z e) (constant (F := Ideal) S0 .f32 0x45000000#32)

end Cert.VQSpec

end
-- ==== Proof.KernelPayload.lean ====
/-
  The kernel body's arithmetic, read at an index.

  One grid step holds a block of 1024 input vectors (256 channels by 1024 positions, the channel axis first), a block of
  1024 codes, and the codes' squared norms as a row. Entry (r, j) of the step's distance tile is
      max (‖z_r‖² + ‖e_j‖² − 2 · ⟨z_r, e_j⟩) 0,
  where ‖z_r‖² is the sum over the channels of the squares in column r of the block, the inner product contracts the
  channel axis of the two blocks, and ‖e_j‖² is read from the row. The step's column minima are the infima of the
  tile's columns, and the running minimum is the lesser of the carried row and the step's.
-/
import proofs.«119047_j38946763440842_2_alg».proof.Proof.Gen.KernelIdeal.Skeleton
import proofs.«119047_j38946763440842_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Idealize.ShloMosaic.Pipeline

/-! ## A column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three terms of a distance -/

/-- The codes' squared norms, a row, spread down the tile: entry (r, j) is the row's entry j. -/
theorem codeSq_apply (x2 : FVec Ideal S1x1024 .f32) (r j : Fin 1024) :
    broadcastTo S1024x1024 (shapeCast S1x1024 x2 shapeCasts_S1x1024_S1x1024) broadcasts_S1x1024_S1024x1024 (ix2 r j)
      = x2 (ix2 (0 : Fin 1) j) := by
  rw [shapeCast_self]
  exact broadcastTo_1b_ab_apply x2 _ r j

/-- The input vectors' squared norms: the sum over the channels of the squares, cast to a row, turned into a column
    and spread along the tile's rows. Entry (r, j) is the sum over the channels of the squares in column r. -/
theorem rowSq_apply (v1 : FVec Ideal S256x1024 .f32) (r j : Fin 1024) :
    broadcastTo S1024x1024 (transpose S1024x1 [1, 0] (shapeCast S1x1024
        (multiReduction (F := Ideal) .add [0] S1024 (mulf v1 v1) 0x00000000#32 reduces_S256x1024_S1024 (.inl rfl) rfl)
        shapeCasts_S1024_S1x1024) transposes_S1x1024_p1_0_S1024x1) broadcasts_S1024x1_S1024x1024 (ix2 r j)
      = ∑ d : Fin 256, v1 (ix2 d r) * v1 (ix2 d r) := by
  refine (broadcastTo_a1_ab_apply _ _ r j).trans ?_
  refine (transpose_ix2_apply _ _ r (0 : Fin 1)).trans ?_
  refine (shapeCast_a_1a_apply _ _ (0 : Fin 1) r).trans ?_
  refine (Ideal.multiReduction_add_single (mulf v1 v1) 0x00000000#32 reduces_S256x1024_S1024 (.inl rfl) rfl (ix1 r)).trans ?_
  refine Finset.sum_congr rfl fun d _ => ?_
  have e : reduces_S256x1024_S1024.lift (ix1 r) d = ix2 d r :=
    funext fun a => Fin.ext (by match a with | ⟨0, _⟩ => rfl | ⟨1, _⟩ => rfl)
  rw [e]
  rfl

/-- The product's operand indices on the axes it keeps: the left operand's axis 1 is the result's row, the right
    operand's axis 0 the result's column. -/
theorem lhs_kept (i : S1024x1024.Idx) (q : dot_S256x1024_S1024x256_S1024x1024_0_1_1_0_n_n.contr.Idx) :
    (dot_S256x1024_S1024x256_S1024x1024_0_1_1_0_n_n.lhsIdx i q 1).val = (i 0).val := by
  unfold DotDims.lhsIdx
  rw [dif_neg (show ¬(1 : Fin S256x1024.rank) ∈ dot_S256x1024_S1024x256_S1024x1024_0_1_1_0_n_n.lhsBatch by decide),
    dif_pos (show (1 : Fin S256x1024.rank) ∈ dot_S256x1024_S1024x256_S1024x1024_0_1_1_0_n_n.lhsNonContracting by decide)]
  rfl
theorem rhs_kept (i : S1024x1024.Idx) (q : dot_S256x1024_S1024x256_S1024x1024_0_1_1_0_n_n.contr.Idx) :
    (dot_S256x1024_S1024x256_S1024x1024_0_1_1_0_n_n.rhsIdx i q 0).val = (i 1).val := by
  unfold DotDims.rhsIdx
  rw [dif_neg (show ¬(0 : Fin S1024x256.rank) ∈ dot_S256x1024_S1024x256_S1024x1024_0_1_1_0_n_n.rhsBatch by decide),
    dif_pos (show (0 : Fin S1024x256.rank) ∈ dot_S256x1024_S1024x256_S1024x1024_0_1_1_0_n_n.rhsNonContracting by decide)]
  rfl

/-- The inner products: the matrix product contracting the channel axis of the two blocks, into the zero tile (the
    narrowing of the operands is the identity on the values). Entry (r, j) is the sum over the channels of input
    column r times code row j. -/
theorem cross_apply (v1 : FVec Ideal S256x1024 .f32) (x1 : FVec Ideal S1024x256 .f32) (r j : Fin 1024) :
    matmul dot_S256x1024_S1024x256_S1024x1024_0_1_1_0_n_n none (truncf .bf16 v1 bitsLt_bf16_f32)
        (truncf .bf16 x1 bitsLt_bf16_f32) (constant (F := Ideal) S1024x1024 .f32 0x00000000#32) (ix2 r j)
      = ∑ d : Fin 256, v1 (ix2 d r) * x1 (ix2 j d) := by
  refine (Ideal.matmul_constant_zero_apply dot_S256x1024_S1024x256_S1024x1024_0_1_1_0_n_n none _ _ (ix2 r j)).trans ?_
  rw [← Equiv.sum_comp (contrEquiv1 dot_S256x1024_S1024x256_S1024x1024_0_1_1_0_n_n 256 rfl rfl).symm]
  refine Finset.sum_congr rfl fun k _ => ?_
  have hk := contrEquiv1_symm_val dot_S256x1024_S1024x256_S1024x1024_0_1_1_0_n_n 256 rfl rfl k
  have el : dot_S256x1024_S1024x256_S1024x1024_0_1_1_0_n_n.lhsIdx (ix2 r j)
      ((contrEquiv1 dot_S256x1024_S1024x256_S1024x1024_0_1_1_0_n_n 256 rfl rfl).symm k) = ix2 k r :=
    funext fun a => Fin.ext (by
      match a with
      | ⟨0, _⟩ => exact (dot_S256x1024_S1024x256_S1024x1024_0_1_1_0_n_n.lhsIdx_val_of_single rfl _ _).trans hk
      | ⟨1, _⟩ => exact lhs_kept _ _)
  have er : dot_S256x1024_S1024x256_S1024x1024_0_1_1_0_n_n.rhsIdx (ix2 r j)
      ((contrEquiv1 dot_S256x1024_S1024x256_S1024x1024_0_1_1_0_n_n 256 rfl rfl).symm k) = ix2 j k :=
    funext fun a => Fin.ext (by
      match a with
      | ⟨0, _⟩ => exact rhs_kept _ _
      | ⟨1, _⟩ => exact (dot_S256x1024_S1024x256_S1024x1024_0_1_1_0_n_n.rhsIdx_val_of_single rfl _ _).trans hk)
  rw [el, er]
  rfl

/-! ## The distance tile -/

/-- Entry (r, j) of a step's tile: the clamped squared distance from the block's input vector r to its code j. -/
theorem pay1_apply (x0 : Vec Ideal S1x256x1024 .f32) (x1 : Vec Ideal S1024x256 .f32) (x2 : Vec Ideal S1x1024 .f32)
    (r j : Fin 1024) :
    k0_pay1 (F := Ideal) x0 x1 x2 (ix2 r j)
      = max (((∑ d : Fin 256, x0 (ix3 (0 : Fin 1) d r) * x0 (ix3 (0 : Fin 1) d r)) + x2 (ix2 (0 : Fin 1) j))
          - Ideal.ofBits .f32 0x40000000#32 * ∑ d : Fin 256, x0 (ix3 (0 : Fin 1) d r) * x1 (ix2 j d)) 0 := by
  unfold k0_pay1
  dsimp only
  rw [maximumf_apply, subf_apply, addf_apply, mulf_apply, broadcast_apply, broadcast_apply, rowSq_apply, codeSq_apply,
    cross_apply]
  simp only [shapeCast_1ab_ab_apply, Ideal.ofBits_def, Ideal.ofBits_zero_f32]

/-! ## The column minima -/

/-- The word of +∞ denotes the top element of the extended reals. -/
theorem ofBits_inf_f32 : Ideal.ofBits .f32 0x7F800000#32 = (⊤ : EReal) := by simp [Ideal.ofBits, Ideal.ieee]

/-- Over any finite index type, the minimum folded from the top element is the infimum. -/
theorem fold_min_top {ι : Type} [Fintype ι] (f : ι → EReal) (b : EReal) (hb : b = ⊤) :
    Finset.univ.fold min b f = Finset.univ.inf f := by
  subst hb; rfl

/-- A minimum taken over one axis is, at each kept index, the fold of the minimum from the accumulator's value over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Entry j of a step's row of minima: the infimum of column j of the step's tile. -/
theorem pay2_apply (x0 : Vec Ideal S1x256x1024 .f32) (x1 : Vec Ideal S1024x256 .f32) (x2 : Vec Ideal S1x1024 .f32)
    (j : Fin 1024) :
    k0_pay2 (F := Ideal) x0 x1 x2 (ix2 (0 : Fin 1) j)
      = (Finset.univ : Finset (Fin 1024)).inf fun r => k0_pay1 (F := Ideal) x0 x1 x2 (ix2 r j) := by
  unfold k0_pay2
  dsimp only
  refine (shapeCast_a_1a_apply _ _ (0 : Fin 1) j).trans ?_
  refine (multiReduction_minimumf_single (k0_pay1 (F := Ideal) x0 x1 x2) 0x7F800000#32 reduces_S1024x1024_S1024
    (.inl rfl) rfl (ix1 j)).trans ?_
  have hf : (k0_pay1 (F := Ideal) x0 x1 x2 ∘ reduces_S1024x1024_S1024.lift (ix1 j))
      = fun r => k0_pay1 (F := Ideal) x0 x1 x2 (ix2 r j) :=
    funext fun r => congrArg (k0_pay1 (F := Ideal) x0 x1 x2)
      (funext fun a => Fin.ext (by match a with | ⟨0, _⟩ => rfl | ⟨1, _⟩ => rfl))
  rw [hf]
  exact fold_min_top _ _ ofBits_inf_f32

/-- The row a first step stores is the row of minima itself. -/
theorem pay3_eq (x0 : Vec Ideal S1x256x1024 .f32) (x1 : Vec Ideal S1024x256 .f32) (x2 : Vec Ideal S1x1024 .f32) :
    k0_pay3 (F := Ideal) x0 x1 x2 = k0_pay2 (F := Ideal) x0 x1 x2 := by
  unfold k0_pay3
  exact shapeCast_self _ _

/-- The row a later step stores: entry j is the lesser of the carried entry and the step's minimum. -/
theorem pay4_apply (x0 : Vec Ideal S1x256x1024 .f32) (x1 : Vec Ideal S1024x256 .f32) (x2 : Vec Ideal S1x1024 .f32)
    (xs : Vec Ideal S1x1024 .f32) (j : Fin 1024) :
    k0_pay4 (F := Ideal) x0 x1 x2 xs (ix2 (0 : Fin 1) j)
      = min (xs (ix2 (0 : Fin 1) j)) (k0_pay2 (F := Ideal) x0 x1 x2 (ix2 (0 : Fin 1) j)) := by
  unfold k0_pay4
  rw [shapeCast_self]
  rfl

end Cert.KernelIdeal.Payload

end
-- ==== Proof.MinFold.lean ====
/-
  The infimum of a function over the first `(a + 1) · 1024` of 16384 indices is the minimum of its infimum over the
  first `a · 1024` with its infimum over the next 1024: how a running minimum over sixteen blocks of 1024 rows builds
  the infimum over all 16384 rows.
-/
import proofs.«119047_j38946763440842_2_alg».proof.Proof.Spec

noncomputable section

namespace Cert.VQSpec

/-- The infimum over the indices below `b`. -/
def infBelow (f : Fin 16384 → EReal) (b : ℕ) : EReal :=
  (Finset.univ.filter fun q : Fin 16384 => q.val < b).inf f

theorem infBelow_zero (f : Fin 16384 → EReal) : infBelow f 0 = ⊤ := by
  unfold infBelow
  rw [Finset.filter_false_of_mem (fun q _ => Nat.not_lt_zero _), Finset.inf_empty]

theorem infBelow_all (f : Fin 16384 → EReal) : infBelow f 16384 = (Finset.univ : Finset (Fin 16384)).inf f := by
  unfold infBelow
  rw [Finset.filter_true_of_mem (fun q _ => q.isLt)]

theorem infBelow_succ (f : Fin 16384 → EReal) (a : ℕ) (ha : a < 16) :
    infBelow f ((a + 1) * 1024)
      = min (infBelow f (a * 1024)) ((Finset.univ : Finset (Fin 1024)).inf fun r => f ⟨a * 1024 + r.val, by have := r.isLt; omega⟩) := by
  unfold infBelow
  apply le_antisymm
  · apply le_min
    · refine Finset.le_inf fun q hq => Finset.inf_le ?_
      rw [Finset.mem_filter] at hq ⊢
      exact ⟨hq.1, by have := hq.2; omega⟩
    · refine Finset.le_inf fun r _ => Finset.inf_le ?_
      rw [Finset.mem_filter]
      exact ⟨Finset.mem_univ _, by have := r.isLt; show a * 1024 + r.val < (a + 1) * 1024; omega⟩
  · refine Finset.le_inf fun q hq => ?_
    rw [Finset.mem_filter] at hq
    by_cases h : q.val < a * 1024
    · exact (min_le_left _ _).trans (Finset.inf_le (by rw [Finset.mem_filter]; exact ⟨Finset.mem_univ _, h⟩))
    · refine (min_le_right _ _).trans ?_
      have hr : q.val - a * 1024 < 1024 := by have := hq.2; omega
      have e : q = ⟨a * 1024 + (⟨q.val - a * 1024, hr⟩ : Fin 1024).val, by have := q.isLt; show a * 1024 + (q.val - a * 1024) < 16384; omega⟩ :=
        Fin.ext (by show q.val = a * 1024 + (q.val - a * 1024); omega)
      rw [e]
      exact Finset.inf_le (f := fun r : Fin 1024 => f ⟨a * 1024 + r.val, by have := r.isLt; omega⟩) (Finset.mem_univ (⟨q.val - a * 1024, hr⟩ : Fin 1024))

end Cert.VQSpec

end
-- ==== Proof.KernelIdealValue.Blocks.lean ====
/-
  The blocks a point works on, in the arrays' own coordinates. Point `t` is image `t % 16` of half `t / 16` of the
  codebook: its first input block is that image (all channels, all 1024 positions), its second the 1024 codes of that half,
  its third those codes' squared norms. So the block of distances it computes is, at row `r` and column `j`, the clamped
  squared distance from input vector `(t % 16) · 1024 + r` to code `(t / 16) · 1024 + j`, and its column minima are the
  infima over the image's 1024 vectors.
-/
import proofs.«119047_j38946763440842_2_alg».proof.Proof.KernelIdealValue.Pieces
import proofs.«119047_j38946763440842_2_alg».proof.Proof.KernelIdealValue.HostStages
import proofs.«119047_j38946763440842_2_alg».proof.Proof.KernelIdealValue.WindowIndex
import proofs.«119047_j38946763440842_2_alg».proof.Proof.KernelPayload
import proofs.«119047_j38946763440842_2_alg».proof.Proof.MinFold

noncomputable section

open scoped BigOperators

namespace Cert.KernelIdeal.Body

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.VQSpec

variable (m : (ℓ : Loc nD τ sig) → Buf (Elt Ideal) ℓ)

/-- The input vector a point's row `r` is, and the code its column `j` is. -/
abbrev rowOf (t : Fin cfg0.N) (r : Fin 1024) : Fin 16384 := ⟨t.val % 16 * 1024 + r.val, by have := r.isLt; omega⟩
abbrev colOf (t : Fin cfg0.N) (j : Fin 1024) : Fin 2048 := ⟨t.val / 16 * 1024 + j.val, by have := j.isLt; have := point_lt t; omega⟩

/-- The first input block: channel `d` at position `p` of the point's image. -/
theorem blk0_apply (c : Dev nD) (t : Fin cfg0.N) (d : Fin 256) (p : Fin 1024) :
    (iblk m c 0 t : Vec Ideal S1x256x1024 .f32) (ix3 (0 : Fin 1) d p) = zAt (zArr m c) (rowOf t p) d := by
  unfold iblk
  rw [View.read_apply, emb0]
  show V m c main_v0 (ix3 _ d p) = _
  rw [V_v0_apply]
  unfold zAt
  refine congrArg (zArr m c) (funext fun a => Fin.ext ?_)
  have := p.isLt
  match a with
  | ⟨0, _⟩ => show t.val % 16 = (t.val % 16 * 1024 + p.val) / 1024; omega
  | ⟨1, _⟩ => rfl
  | ⟨2, _⟩ => show p.val / 32 = (t.val % 16 * 1024 + p.val) % 1024 / 32; omega
  | ⟨3, _⟩ => show p.val % 32 = (t.val % 16 * 1024 + p.val) % 32; omega

/-- The second input block: coordinate `d` of the half's code `r`. -/
theorem blk1_apply (c : Dev nD) (t : Fin cfg0.N) (r : Fin 1024) (d : Fin 256) :
    (iblk m c 1 t : Vec Ideal S1024x256 .f32) (ix2 r d) = eAt (eArr m c) (colOf t r) d := by
  unfold iblk
  rw [View.read_apply, emb1]
  show V m c main_arg1 (ix2 _ d) = _
  rw [V_main_arg1]
  rfl

/-- The third input block: the squared norm of the half's code `j`. -/
theorem blk2_apply (c : Dev nD) (t : Fin cfg0.N) (j : Fin 1024) :
    (iblk m c 2 t : Vec Ideal S1x1024 .f32) (ix2 (0 : Fin 1) j) = ∑ d : Fin 256, eAt (eArr m c) (colOf t j) d * eAt (eArr m c) (colOf t j) d := by
  unfold iblk
  rw [View.read_apply, emb2]
  show V m c main_v4 (ix2 (0 : Fin 1) _) = _
  rw [V_v4_apply]
  rfl

/-- The block of distances a point computes is the specification's distances at the point's rows and columns. -/
theorem distBlk_apply (c : Dev nD) (t : Fin cfg0.N) (r j : Fin 1024) :
    distBlk m c t (ix2 r j) = sqDist (zArr m c) (eArr m c) (rowOf t r) (colOf t j) := by
  show k0_pay1 (F := Ideal) (iblk m c 0 t) (iblk m c 1 t) (iblk m c 2 t) (ix2 r j) = _
  rw [pay1_apply]
  unfold sqDist
  simp only [blk0_apply, blk1_apply, blk2_apply]

/-- Its column minima are the infima over the point's image. -/
theorem colMinBlk_apply (c : Dev nD) (t : Fin cfg0.N) (j : Fin 1024) :
    k0_pay2 (F := Ideal) (iblk m c 0 t) (iblk m c 1 t) (iblk m c 2 t) (ix2 (0 : Fin 1) j)
      = (Finset.univ : Finset (Fin 1024)).inf fun r => sqDist (zArr m c) (eArr m c) (rowOf t r) (colOf t j) := by
  rw [pay2_apply]
  exact congrArg _ (funext fun r => distBlk_apply m c t r j)

end Cert.KernelIdeal.Body

end
-- ==== Proof.KernelIdealValue.Rows.lean ====
/-
  What the scratch row holds after each point. Within a half of the codebook the images come in order, so after the
  point of image `a` the row's entry `j` is the infimum of the distances to code `j` of the half over the input vectors of
  images `0 … a`, that is over the vectors numbered below `(a + 1) · 1024`: at image 0 it is the block's column minimum,
  and at a later image the minimum of the previous value with the block's column minimum.
-/
import proofs.«119047_j38946763440842_2_alg».proof.Proof.KernelIdealValue.Blocks

noncomputable section

open scoped BigOperators

namespace Cert.KernelIdeal.Body

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.VQSpec

variable (m : (ℓ : Loc nD τ sig) → Buf (Elt Ideal) ℓ)

/-- The distances to the code a point's column `j` is, as a function of the input vector. -/
abbrev toCol (c : Dev nD) (t : Fin cfg0.N) (j : Fin 1024) : Fin 16384 → EReal :=
  fun q => sqDist (zArr m c) (eArr m c) q (colOf t j)

theorem row_first (c : Dev nD) (t : Fin cfg0.N) (h0 : t.val % 16 = 0) (j : Fin 1024) :
    (outsAt m c t.val t.isLt).2.2 (ix2 (0 : Fin 1) j) = infBelow (toCol m c t j) ((t.val % 16 + 1) * 1024) := by
  rw [outsAt_row_first m c t h0, pay3_eq, colMinBlk_apply, h0, infBelow_succ _ 0 (by decide)]
  show _ = min (infBelow (toCol m c t j) 0) _
  rw [infBelow_zero, min_eq_right le_top]
  refine congrArg _ (funext fun r => ?_)
  show sqDist _ _ (rowOf t r) _ = sqDist _ _ _ _
  exact congrArg (fun q => sqDist (zArr m c) (eArr m c) q (colOf t j)) (Fin.ext (by show t.val % 16 * 1024 + r.val = 0 * 1024 + r.val; rw [h0]))

theorem row_later (c : Dev nD) (t : Fin cfg0.N) (h0 : t.val % 16 ≠ 0)
    (ih : ∀ j : Fin 1024, prevRow m c t (ix2 (0 : Fin 1) j) = infBelow (toCol m c t j) (t.val % 16 * 1024)) (j : Fin 1024) :
    (outsAt m c t.val t.isLt).2.2 (ix2 (0 : Fin 1) j) = infBelow (toCol m c t j) ((t.val % 16 + 1) * 1024) := by
  rw [outsAt_row_later m c t h0, pay4_apply, ih j, colMinBlk_apply, infBelow_succ _ (t.val % 16) (Nat.mod_lt _ (by decide))]

/-- After every point: the row's entry `j` is the infimum over the vectors of the half's images so far. -/
theorem row_inv (c : Dev nD) (t : Fin cfg0.N) :
    ∀ j : Fin 1024, (outsAt m c t.val t.isLt).2.2 (ix2 (0 : Fin 1) j) = infBelow (toCol m c t j) ((t.val % 16 + 1) * 1024) := by
  obtain ⟨n, hn⟩ := t
  induction n with
  | zero => exact fun j => row_first m c ⟨0, hn⟩ (Nat.zero_mod _) j
  | succ n ih =>
    intro j
    by_cases h0 : (n + 1) % 16 = 0
    · exact row_first m c ⟨n + 1, hn⟩ h0 j
    · refine row_later m c ⟨n + 1, hn⟩ h0 (fun j' => ?_) j
      have e := ih (Nat.lt_of_succ_lt hn) j'
      have hc : colOf ⟨n, Nat.lt_of_succ_lt hn⟩ j' = colOf ⟨n + 1, hn⟩ j' :=
        Fin.ext (by show n / 16 * 1024 + j'.val = (n + 1) / 16 * 1024 + j'.val; omega)
      have hk : n % 16 + 1 = (n + 1) % 16 := by omega
      show (outsAt m c n _).2.2 (ix2 (0 : Fin 1) j') = infBelow (toCol m c ⟨n + 1, hn⟩ j') ((n + 1) % 16 * 1024)
      rw [← hk]
      show _ = infBelow (fun q => sqDist (zArr m c) (eArr m c) q (colOf ⟨n + 1, hn⟩ j')) _
      rw [← hc]
      exact e

end Cert.KernelIdeal.Body

end
-- ==== Proof.KernelIdealValue.Tail.lean ====
/-
  The host lines after the launch, as pure functions of the two argument arrays.

  The kernel leaves a row holding, for each of the 2048 codes, the least clamped squared distance from any input
  vector; the host sums the row from the zero word and divides by the word of 2048. The sum over the row's indices
  is the sum over the codes, so the result is the specification's mean, with the final division kept as printed.
-/
import proofs.«119047_j38946763440842_2_alg».proof.Proof.Gen.KernelIdeal
import proofs.«119047_j38946763440842_2_alg».proof.Proof.Spec
import Idealize.ShloMosaic.Lib.ValueIdx
import Idealize.ShloMosaic.PureOps.Ideal.Laws

noncomputable section

open scoped BigOperators

namespace Cert.KernelIdeal.Payload

open Cert.KernelIdeal Cert.KernelIdeal.Gen Cert.VQSpec
open Idealize.ShloMosaic Idealize.ShloMosaic.ValueIdx

/-- An index of the one-row shape is its column. -/
def rowEquiv : S1x2048.Idx ≃ Fin 2048 where
  toFun i := i 1
  invFun k := ix2 (0 : Fin 1) k
  left_inv i := funext fun a => by
    match a with
    | ⟨0, _⟩ => exact Fin.ext (by have h : (i 0).val < 1 := (i 0).isLt; show 0 = (i 0).val; omega)
    | ⟨1, _⟩ => rfl
  right_inv _ := rfl

/-- The sum of the row of least distances, from the zero word, is the specification's sum over the codes. -/
theorem rowSum_eq (z : ZS.Idx → EReal) (e : ES.Idx → EReal) (i : S_.Idx) :
    Host.reduceAdd (F := Ideal) (fun i : S1x2048.Idx => colMin z e (i 1)) (constant (F := Ideal) S_ .f32 0x00000000#32)
        reducesTo_S1x2048_S_d0_1 h_S_ i = minSum z e := by
  simp only [Host.reduceAdd, Ideal.hostReduceAdd_def]
  rw [Ideal.hostReduceAdd_total reducesTo_S1x2048_S_d0_1 (fun b => b.elim0)]
  show Ideal.ofBits .f32 0x00000000#32 + _ = _
  rw [Ideal.ofBits_zero_f32, zero_add]
  exact Fintype.sum_equiv rowEquiv _ _ (fun _ => rfl)

/-- The host's tail applied to the row of least distances is the specification's mean. -/
theorem tail_eq (z : ZS.Idx → EReal) (e : ES.Idx → EReal) :
    Host.divf (F := Ideal) (Host.reduceAdd (F := Ideal) (fun i : S1x2048.Idx => colMin z e (i 1))
        (constant (F := Ideal) S_ .f32 0x00000000#32) reducesTo_S1x2048_S_d0_1 h_S_)
      (constant (F := Ideal) S_ .f32 0x45000000#32) = lossArr z e := by
  have hs : Host.reduceAdd (F := Ideal) (fun i : S1x2048.Idx => colMin z e (i 1))
      (constant (F := Ideal) S_ .f32 0x00000000#32) reducesTo_S1x2048_S_d0_1 h_S_ = fun _ => minSum z e :=
    funext fun i => rowSum_eq z e i
  rw [hs]
  rfl

end Cert.KernelIdeal.Payload

end
-- ==== Proof.KernelIdealValue.Final.lean ====
/-
  The two result arrays after the run. Every point writes its block of distances back, and the blocks tile the distance
  matrix, so the matrix ends as the specification's. The scratch row is copied out and written back at the last image of
  each half, when it holds the infima over all 16384 input vectors, so the row of minima ends as the specification's
  column minima; the host's sum and division after the launch then give the mean. The arguments are left as launched.
-/
import proofs.«119047_j38946763440842_2_alg».proof.Proof.KernelIdealValue.Rows
import proofs.«119047_j38946763440842_2_alg».proof.Proof.KernelIdealValue.Tail

set_option maxRecDepth 16384

noncomputable section

open scoped BigOperators

namespace Cert.KernelIdeal.Body

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.VQSpec

variable (m : (ℓ : Loc nD τ sig) → Buf (Elt Ideal) ℓ)

variable (ρ : Dev nD → PrngReg)

/-- What a point writes back of the first output is the specification's matrix read through the point's block. -/
theorem flushed3_eq (c : Dev nD) (t : Fin cfg0.N) (hf : (cfg0.win 3).flush t = true) :
    (dats m 0 c).flushed 3 t = ((cfg0.win 3).blk t).view.read (Elt Ideal) (distArr (zArr m c) (eArr m c)) := by
  show (cfg0.win 3).cut (grid0.coords t) ((dats m 0 c).after 3 t) = _
  rw [after3, outsAt_dist]
  refine funext fun (y : S1024x1024.Idx) => ?_
  obtain ⟨r, j, rfl⟩ : ∃ (r j : Fin 1024), y = ix2 r j := ⟨y 0, y 1, eq_ix2 y⟩
  rw [View.read_apply, emb3]
  exact distBlk_apply m c t r j

/-- So the distance matrix ends as the specification's. -/
theorem final3 (c : Dev nD) : (dats m 0 c).arrAt 3 cfg0.N = distArr (zArr m c) (eArr m c) :=
  (dats m 0 c).arrAt_eq_of_cover 3 (distArr (zArr m c) (eArr m c)) (flushed3_eq m c) cover3

/-- The row of column minima, as an array. -/
abbrev minRow (c : Dev nD) : S1x2048.Idx → EReal := fun i => colMin (zArr m c) (eArr m c) (i 1)

/-- After the last image of a half the scratch row holds the column minima over all the input vectors. -/
theorem row_last (c : Dev nD) (t : Fin cfg0.N) (h15 : t.val % 16 = 15) (j : Fin 1024) :
    (outsAt m c t.val t.isLt).2.2 (ix2 (0 : Fin 1) j) = colMin (zArr m c) (eArr m c) (colOf t j) := by
  rw [row_inv m c t j, h15, show (15 + 1) * 1024 = 16384 from by norm_num, infBelow_all]
  rfl

set_option maxRecDepth 1000000 in
/-- What the last image of a half writes back of the second output is the row of column minima read through its block. -/
theorem flushed4_eq (c : Dev nD) (t : Fin cfg0.N) (hf : (cfg0.win 4).flush t = true) :
    (dats m 0 c).flushed 4 t = ((cfg0.win 4).blk t).view.read (Elt Ideal) (minRow m c) := by
  have h15 : t.val % 16 = 15 := (flush0_4 t).mp hf
  show (cfg0.win 4).cut (grid0.coords t) ((dats m 0 c).after 4 t) = _
  rw [after4, outsAt_out_last m c t h15]
  refine funext fun (y : S1x1024.Idx) => ?_
  obtain ⟨j, rfl⟩ : ∃ j : Fin 1024, y = ix2 (0 : Fin 1) j :=
    ⟨y 1, by have e := eq_ix2 y; rw [Fin.fin_one_eq_zero (y 0)] at e; exact e⟩
  rw [View.read_apply]
  have e1 : colMin (zArr m c) (eArr m c) (colOf t j) = minRow m c (ix2 (0 : Fin 1) (colOf t j)) := rfl
  exact ((row_last m c t h15 j).trans e1).trans (congrArg (minRow m c) (emb4 t j)).symm

theorem final4 (c : Dev nD) : (dats m 0 c).arrAt 4 cfg0.N = minRow m c :=
  (dats m 0 c).arrAt_eq_of_cover 4 (minRow m c) (flushed4_eq m c) cover4

/-- The scalar the host lines after the launch leave: the mean of the column minima. -/
theorem tail_v7 (c : Dev nD) :
    Pipeline.afterTail₀ cfgs (dats m) 0 (V0 m) [hostOps1] c main_v7 = lossArr (zArr m c) (eArr m c) := by
  unfold Pipeline.afterTail₀
  show StableHlo.after hostOps1 _ (Proc.devRef .tc main_v7) = _
  after_results
  rw [show Pipeline.withArrays spec0 c (V0 m c) (fun w => (dats m 0 c).arrAt w cfg0.N) (Proc.devRef .tc main_v5_1) = minRow m c from
    (Pipeline.withArrays_arr spec0 launch0.win.arr_inj c _ _ 4).trans (final4 m c)]
  exact tail_eq _ _

/-- The run of the idealized kernel program, read: both results at the specification's arrays, the arguments unchanged. -/
theorem run_value : θ_run defs (onTc (τ := τ) (main (F := Ideal))) ⟨m, fun _ => 0, ρ⟩ (fun r => ∀ c : Dev nD,
      r.2.mem ((c.tc : Thread nD τ).loc main_v5_0) = distArr (zArr m c) (eArr m c)
      ∧ r.2.mem ((c.tc : Thread nD τ).loc main_v7) = lossArr (zArr m c) (eArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 3).trans (final3 m c),
     ((h c).2 main_v7 (Pipeline.mem_restRefs_of main_v7 (by decide) (by decide))).trans (tail_v7 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩) (run_main m ρ)

end Cert.KernelIdeal.Body

end
-- ==== Proof.RefValue.lean ====
/-
  The reference's two results, read index by index, are the specification's arrays.

  The reference moves the channel axis of the images last and flattens the positions: entry (n, d) of the flattened
  array is channel d of image n / 1024 at row n % 1024 / 32, column n % 32. Its row sums of squares, its product with
  the codebook contracted over the channel, the sum, the difference and the clamp are then the specification's
  clamped squared distance term by term; the least distance to a code is the fold of the minimum from +∞ over the
  16384 vectors, which is the infimum over them; and the mean keeps the final division as it is printed.
-/
import proofs.«119047_j38946763440842_2_alg».proof.Proof.Spec
import proofs.«119047_j38946763440842_2_alg».proof.Proof.Gen.ReferenceIdeal.Run
import proofs.«119047_j38946763440842_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.VQSpec
open Idealize.ShloMosaic Idealize.ShloMosaic.ValueIdx Idealize.ShloMosaic.StableHlo

/-- The images' and the codebook's contents, as the reference's run holds them. -/
abbrev ZArr : Type := (⟨S16x256x32x32, .f32⟩ : BufTy).Contents (Elt Ideal)
abbrev EArr : Type := (⟨S2048x256, .f32⟩ : BufTy).Contents (Elt Ideal)

/-- Entry (n, d) of the flattened images is channel d of input vector n. -/
theorem flat_apply (z : ZArr) (j : S16384x256.Idx) :
    val_main_v1 (F := Ideal) z j = zAt z (j 0) (j 1) := by
  rw [val_main_v1_apply, val_main_v0_apply]
  unfold zAt
  refine congrArg z (funext fun a => Fin.ext ?_)
  have h0 : (j 0).val < 16384 := (j 0).isLt
  have h1 : (j 1).val < 256 := (j 1).isLt
  match a with
  | ⟨0, _⟩ => show ((j 0).val * 256 + (j 1).val) / 262144 = (j 0).val / 1024; omega
  | ⟨1, _⟩ => show ((j 0).val * 256 + (j 1).val) % 256 = (j 1).val; omega
  | ⟨2, _⟩ => show ((j 0).val * 256 + (j 1).val) / 8192 % 32 = (j 0).val % 1024 / 32; omega
  | ⟨3, _⟩ => show ((j 0).val * 256 + (j 1).val) / 256 % 32 = (j 0).val % 32; omega

/-- The reference's first result is the matrix of clamped squared distances. -/
theorem dist_eq (z : ZArr) (e : EArr) : val_main_v16 (F := Ideal) z e = distArr z e := by
  funext i
  have e6 : ∀ k : Fin 256, idx_main_v6 (idx_main_v8 (idx_main_v10 i)) k = ix2 (i 1) k := fun k =>
    funext fun a => by match a with | ⟨0, _⟩ => rfl | ⟨1, _⟩ => rfl
  have e7 : ∀ k : Fin 256, ridx_main_v7 i k = ix2 (i 1) k := fun k =>
    funext fun a => by match a with | ⟨0, _⟩ => rfl | ⟨1, _⟩ => rfl
  rw [val_main_v16_apply, val_main_v14_apply, val_main_v11_apply, val_main_v9_apply, val_main_v4_apply, val_main_v3_apply,
    val_main_v10_apply, val_main_v8_apply, val_main_v6_apply, val_main_v13_apply, val_main_v12_apply, val_main_cst_1_apply,
    val_main_v7_apply, val_main_v15_apply, val_main_cst_2_apply, val_main_cst_apply, val_main_cst_0_apply]
  simp only [val_main_v2_apply, val_main_v5_apply, flat_apply, e6, e7, Ideal.addf_def, Ideal.subf_def, Ideal.mulf_def,
    Ideal.maximumf_def, Ideal.ofBits_def, Ideal.ofBits_zero_f32, zero_add]
  rfl

/-- The word of +∞ denotes the top element of the extended reals. -/
theorem ofBits_inf_f32 : Ideal.ofBits .f32 0x7F800000#32 = (⊤ : EReal) := by simp [Ideal.ofBits, Ideal.ieee]

/-- Over any finite index type, the minimum folded from the top element is the infimum. -/
theorem fold_minimumf_top {ι : Type} [Fintype ι] (f : ι → EReal) (b : EReal) (hb : b = ⊤) :
    Finset.univ.fold (FloatOps.minimumf (F := Ideal) (φ := .f32)) b f = Finset.univ.inf f := by
  subst hb; rfl

/-- The reference's least distance to code `k`: the minimum folded from +∞ down column `k` of the distance matrix
    is the infimum over the input vectors. -/
theorem min_col (z : ZArr) (e : EArr) (j : S2048.Idx) :
    val_main_v17 (F := Ideal) z e j = colMin z e (j 0) := by
  have h : S16384x2048.Reduces [0] S2048 := by decide
  unfold val_main_v17
  rw [Host.reduce_eq_fold_single FloatOps.minimumf _ _ reducesTo_S16384x2048_S2048_d0 h h_S_, dist_eq]
  have hf : (distArr z e ∘ h.lift j) = fun n => sqDist z e n (j 0) :=
    funext fun n => by
      show sqDist z e (h.lift j n 0) (h.lift j n 1) = sqDist z e n (j 0)
      rw [show h.lift j n 0 = n from Fin.ext rfl, show h.lift j n 1 = j 0 from Fin.ext rfl]
  rw [hf]
  exact fold_minimumf_top _ _ ofBits_inf_f32

/-- A code's index in the rank-1 shape is its one coordinate. -/
def codeEquiv : S2048.Idx ≃ Fin 2048 where
  toFun j := j 0
  invFun k := ix1 k
  left_inv j := (eq_ix1 j).symm
  right_inv _ := rfl

/-- The reference's sum of the column minima, from the zero word, is the specification's sum over the codes. -/
theorem minSum_apply (z : ZArr) (e : EArr) (i : S_.Idx) : val_main_v18 (F := Ideal) z e i = minSum z e := by
  rw [val_main_v18_apply, val_main_cst_4_apply]
  show Ideal.ofBits .f32 0x00000000#32 + _ = _
  rw [Ideal.ofBits_zero_f32, zero_add]
  exact Fintype.sum_equiv codeEquiv _ _ (fun j => min_col z e j)

/-- The reference's second result is the specification's mean: the same division of the same sum. -/
theorem loss_eq (z : ZArr) (e : EArr) : val_main_v19 (F := Ideal) z e = lossArr z e := by
  have h18 : val_main_v18 (F := Ideal) z e = fun _ => minSum z e := funext fun i => minSum_apply z e i
  unfold val_main_v19 lossArr
  rw [h18]
  rfl

section Run

open Idealize.ShloMosaic.TcCoe Idealize.SL.Sem

/-- The reference's run in the specification's terms: every weakly fair execution from any memory with zero counters
    terminates with the first result at the distance matrix and the second at the mean least distance of the
    arguments' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
          = distArr (m ((c.tc : Thread nD τ).loc main_arg0)) (m ((c.tc : Thread nD τ).loc main_arg1))
      ∧ r.2.mem ((c.tc : Thread nD τ).loc main_v19)
          = lossArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans ((val_main_v16_eq _ _).trans (dist_eq _ _)),
        (h c).2.1.trans ((val_main_v19_eq _ _).trans (loss_eq _ _)),
        (h c).2.2⟩)
    (Cert.ReferenceIdeal.Value.run (F := Ideal) m ρ)

end Run

end Cert.ReferenceIdeal.RefValue

end
-- ==== Proof.lean ====
/-
  The proof of `Cert.Claim`: the kernel, read word for word and read over the extended reals, and its reference.

  Both programs compute, from 16 images of 256 channels on a 32 × 32 grid and a codebook of 2048 vectors of dimension 256,
  the 16384 × 2048 matrix of clamped squared distances  max (‖z_n‖² + ‖e_k‖² − 2 · ⟨z_n, e_k⟩) 0  between the flattened input
  vectors and the codes, and the mean over the codes of each code's least distance (Proof/Spec.lean). The kernel works on a
  2 × 16 grid — a half of the codebook by an image —, computes one 1024 × 1024 block of the matrix per point with the products
  on the matrix unit, keeps a running minimum of the blocks' column minima in a scratch row across the sixteen images of a
  half, and copies it out at the last image; the host squares and sums the codes before the launch and takes the mean after it.
  The reference transposes and flattens the images, and computes everything with whole-array operations.
  Over the extended reals a change of float format is the identity, the matrix unit's product and the host's contraction are
  one sum, and a minimum over 16384 vectors is the minimum of sixteen minima over 1024, so the two programs' results are one
  function of the arguments, index by index; no finiteness of the inputs is used.

  The three frames: the kernel's two readings run their body at every grid point in one of three cases (first, middle, last
  image: Proof/KernelFrame, Proof/KernelIdealFrame); the reference's frame is its run with the results dropped. The ideal pass
  rewrote nothing, so the idealization claim is trivial. The value claim joins the kernel's run, read through its blocks
  (Proof/KernelIdealValue, Proof/KernelPayload.lean), to the reference's run (Proof/RefValue.lean) at the specification.
-/
import proofs.«119047_j38946763440842_2_alg».proof.Defs
import proofs.«119047_j38946763440842_2_alg».proof.Proof.Gen.Kernel
import proofs.«119047_j38946763440842_2_alg».proof.Proof.Gen.KernelIdeal
import proofs.«119047_j38946763440842_2_alg».proof.Proof.Gen.ReferenceIdeal
import proofs.«119047_j38946763440842_2_alg».proof.Proof.Gen.Pre_finite_inputs
import proofs.«119047_j38946763440842_2_alg».proof.Proof.KernelFrame.Frame
import proofs.«119047_j38946763440842_2_alg».proof.Proof.KernelIdealFrame.Frame
import proofs.«119047_j38946763440842_2_alg».proof.Proof.KernelIdealValue.Final
import proofs.«119047_j38946763440842_2_alg».proof.Proof.RefValue
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_kernel : Cert.frame_Kernel := fun m ρ _ => Cert.Kernel.Body.frame m ρ

/-- The same of its reading over the extended reals. -/
theorem frame_kernelIdeal : Cert.frame_KernelIdeal := fun m ρ _ => Cert.KernelIdeal.Body.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.RefValue.run_spec m ρ)

/-- From memories agreeing on the arguments both programs end with the specification's distance matrix and mean of least
    distances. -/
theorem algebraic : Cert.algebraic_KernelIdeal_ReferenceIdeal := by
  intro m ρ m' ρ' _ hagree
  refine ⟨fun c => Cert.VQSpec.distArr (Cert.KernelIdeal.Body.zArr m c) (Cert.KernelIdeal.Body.eArr m c),
    fun c => Cert.VQSpec.lossArr (Cert.KernelIdeal.Body.zArr m c) (Cert.KernelIdeal.Body.eArr m c),
    Cert.KernelIdeal.Body.run_value m ρ, ?_⟩
  refine (θ_run Cert.ReferenceIdeal.defs _ _).mono (fun _ h c => ?_) (Cert.ReferenceIdeal.RefValue.run_spec m' ρ')
  obtain ⟨h1, h2, h3, h4⟩ := h c
  refine ⟨?_, ?_, h3, h4⟩
  · rw [h1, (hagree c).1, (hagree c).2]
  · rw [h2, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
